-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2000x16 : Shape := ⟨4, ![4, 12, 2000, 16]⟩
abbrev S4x12x20000x8 : Shape := ⟨4, ![4, 12, 20000, 8]⟩
abbrev S160000 : Shape := ⟨1, ![160000]⟩
abbrev S288x288 : Shape := ⟨2, ![288, 288]⟩
abbrev S288 : Shape := ⟨1, ![288]⟩
abbrev S288x24 : Shape := ⟨2, ![288, 24]⟩
abbrev S24 : Shape := ⟨1, ![24]⟩
abbrev S_ : Shape := ⟨0, ![]⟩

class Facts : Prop where
  bcast_S_S4x12x2000x16 : S_.BroadcastsInDim S4x12x2000x16 (![] : Fin 0 → Fin S4x12x2000x16.rank)
  reducesTo_S4x12x2000x16_S_d0_1_2_3 : S4x12x2000x16.ReducesTo [0, 1, 2, 3] S_
  h_S_ : 0 < S_.numel
  bcast_S_S4x12x20000x8 : S_.BroadcastsInDim S4x12x20000x8 (![] : Fin 0 → Fin S4x12x20000x8.rank)
  reducesTo_S4x12x20000x8_S_d0_1_2_3 : S4x12x20000x8.ReducesTo [0, 1, 2, 3] S_
  bcast_S_S288x288 : S_.BroadcastsInDim S288x288 (![] : Fin 0 → Fin S288x288.rank)
  reducesTo_S288x288_S_d0_1 : S288x288.ReducesTo [0, 1] S_
  bcast_S_S288 : S_.BroadcastsInDim S288 (![] : Fin 0 → Fin S288.rank)
  reducesTo_S288_S_d0 : S288.ReducesTo [0] S_
  bcast_S_S288x24 : S_.BroadcastsInDim S288x24 (![] : Fin 0 → Fin S288x24.rank)
  reducesTo_S288x24_S_d0_1 : S288x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg6 : FVec F S288x24 .f32) (main_arg7 : FVec F S24 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S288x24 .f32 := Host.absf main_arg6
  let main_cst_6 : FVec F S_ .f32 := constant S_ .f32 0x7F800000#32
  let main_v20 : FVec F S288x24 .f32 := broadcastInDim S288x24 ![] bcast_S_S288x24 main_cst_6
  let main_v21 : IVec S288x24 1 := cmpf .olt main_v19 main_v20
  let main_c_7 : IVec S_ 1 := constantI S_ 1 1#1
  let main_v22 : IVec S_ 1 := (fun x v => Host.reduce IntOp.andi x v reducesTo_S288x24_S_d0_1 h_S_) main_v21 main_c_7
  let main_v23 : IVec S_ 1 := andi main_v18 main_v22
  let main_v24 : FVec F S24 .f32 := Host.absf main_arg7
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  main_v28

def fn {F : FTy → Type} [FloatOps F] (main_arg0 : FVec F S4x12x2000x16 .f32) (main_arg1 : FVec F S4x12x20000x8 .f32) (main_arg2 : IVec S160000 32) (main_arg3 : IVec S160000 32) (main_arg4 : FVec F S288x288 .f32) (main_arg5 : FVec F S288 .f32) (main_arg6 : FVec F S288x24 .f32) (main_arg7 : FVec F S24 .f32) : IVec S_ 1 :=
  let main_v0 : FVec F S4x12x2000x16 .f32 := Host.absf main_arg0
  let main_cst : FVec F S_ .f32 := constant S_ .f32 0x7F800000#32
  let main_v1 : FVec F S4x12x2000x16 .f32 := broadcastInDim S4x12x2000x16 ![] bcast_S_S4x12x2000x16 main_cst
  let main_v2 : IVec S4x12x2000x16 1 := cmpf .olt main_v0 main_v1
  let main_c : IVec S_ 1 := constantI S_ 1 1#1
  let main_v3 : IVec S_ 1 := (fun x v => Host.reduce IntOp.andi x v reducesTo_S4x12x2000x16_S_d0_1_2_3 h_S_) main_v2 main_c
  let main_v4 : FVec F S4x12x20000x8 .f32 := Host.absf main_arg1
  let main_cst_0 : FVec F S_ .f32 := constant S_ .f32 0x7F800000#32
  let main_v5 : FVec F S4x12x20000x8 .f32 := broadcastInDim S4x12x20000x8 ![] bcast_S_S4x12x20000x8 main_cst_0
  let main_v6 : IVec S4x12x20000x8 1 := cmpf .olt main_v4 main_v5
  let main_c_1 : IVec S_ 1 := constantI S_ 1 1#1
  let main_v7 : IVec S_ 1 := (fun x v => Host.reduce IntOp.andi x v reducesTo_S4x12x20000x8_S_d0_1_2_3 h_S_) main_v6 main_c_1
  let main_v8 : IVec S_ 1 := andi main_v3 main_v7
  let main_v9 : FVec F S288x288 .f32 := Host.absf main_arg4
  let main_cst_2 : FVec F S_ .f32 := constant S_ .f32 0x7F800000#32
  let main_v10 : FVec F S288x288 .f32 := broadcastInDim S288x288 ![] bcast_S_S288x288 main_cst_2
  let main_v11 : IVec S288x288 1 := cmpf .olt main_v9 main_v10
  let main_c_3 : IVec S_ 1 := constantI S_ 1 1#1
  let main_v12 : IVec S_ 1 := (fun x v => Host.reduce IntOp.andi x v reducesTo_S288x288_S_d0_1 h_S_) main_v11 main_c_3
  let main_v13 : IVec S_ 1 := andi main_v8 main_v12
  let main_v14 : FVec F S288 .f32 := Host.absf main_arg5
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg6 main_arg7 main_v13 main_v16
-- ==== Kernel.lean ====
abbrev S4x12x2000x16 : Shape := ⟨4, ![4, 12, 2000, 16]⟩
abbrev S4x12x20000x8 : Shape := ⟨4, ![4, 12, 20000, 8]⟩
abbrev S160000 : Shape := ⟨1, ![160000]⟩
abbrev S288x288 : Shape := ⟨2, ![288, 288]⟩
abbrev S288 : Shape := ⟨1, ![288]⟩
abbrev S288x24 : Shape := ⟨2, ![288, 24]⟩
abbrev S24 : Shape := ⟨1, ![24]⟩
abbrev S_ : Shape := ⟨0, ![]⟩
abbrev S160000x1 : Shape := ⟨2, ![160000, 1]⟩
abbrev S4x12x160000x16 : Shape := ⟨4, ![4, 12, 160000, 16]⟩
abbrev S4x12x20000x16 : Shape := ⟨4, ![4, 12, 20000, 16]⟩
abbrev S20000 : Shape := ⟨1, ![20000]⟩
abbrev S1x1x20000x1 : Shape := ⟨4, ![1, 1, 20000, 1]⟩
abbrev S4x20000x12x16 : Shape := ⟨4, ![4, 20000, 12, 16]⟩
abbrev S4x20000x192 : Shape := ⟨3, ![4, 20000, 192]⟩
abbrev S4x20000x12x8 : Shape := ⟨4, ![4, 20000, 12, 8]⟩
abbrev S4x20000x96 : Shape := ⟨3, ![4, 20000, 96]⟩
abbrev S4x20000x288 : Shape := ⟨3, ![4, 20000, 288]⟩
abbrev S80000x288 : Shape := ⟨2, ![80000, 288]⟩
abbrev S288x128 : Shape := ⟨2, ![288, 128]⟩
abbrev S1 : Shape := ⟨1, ![1]⟩
abbrev S128 : Shape := ⟨1, ![128]⟩
abbrev S1x288 : Shape := ⟨2, ![1, 288]⟩
abbrev S1x128 : Shape := ⟨2, ![1, 128]⟩
abbrev S80000x128 : Shape := ⟨2, ![80000, 128]⟩
abbrev S4000x288 : Shape := ⟨2, ![4000, 288]⟩
abbrev S4000x128 : Shape := ⟨2, ![4000, 128]⟩
abbrev S80000x24 : Shape := ⟨2, ![80000, 24]⟩
abbrev S4x20000x12x2 : Shape := ⟨4, ![4, 20000, 12, 2]⟩
abbrev S4x20000x12x1 : Shape := ⟨4, ![4, 20000, 12, 1]⟩
abbrev S4x20000x12 : Shape := ⟨3, ![4, 20000, 12]⟩
abbrev S4x12x20000 : Shape := ⟨3, ![4, 12, 20000]⟩

abbrev nBuf : Space → Nat
  | .hbm => 100
  | .vmem => 8
  | .smem => 0
  | _ => 0

abbrev bufTy : (tb : Table) → Fin (tcTables nBuf tb) → BufTy
  | .hbm, ⟨0, _⟩ => ⟨S4x12x2000x16, .f32⟩
  | .hbm, ⟨1, _⟩ => ⟨S4x12x20000x8, .f32⟩
  | .hbm, ⟨2, _⟩ => ⟨S160000, .i32⟩
  | .hbm, ⟨3, _⟩ => ⟨S160000, .i32⟩
  | .hbm, ⟨4, _⟩ => ⟨S288x288, .f32⟩
  | .hbm, ⟨5, _⟩ => ⟨S288, .f32⟩
  | .hbm, ⟨6, _⟩ => ⟨S288x24, .f32⟩
  | .hbm, ⟨7, _⟩ => ⟨S24, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S4x12x160000x16, .f32⟩
  | .hbm, ⟨17, _⟩ => ⟨S_, .f32⟩
  | .hbm, ⟨18, _⟩ => ⟨S4x12x20000x16, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S4x12x20000x16, .f32⟩
  | .hbm, ⟨28, _⟩ => ⟨S_, .f32⟩
  | .hbm, ⟨29, _⟩ => ⟨S20000, .f32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S_, .f32⟩
  | .hbm, ⟨39, _⟩ => ⟨S160000, .f32⟩
  | .hbm, ⟨40, _⟩ => ⟨S20000, .f32⟩
  | .hbm, ⟨41, _⟩ => ⟨S1x1x20000x1, .f32⟩
  | .hbm, ⟨42, _⟩ => ⟨S_, .f32⟩
  | .hbm, ⟨43, _⟩ => ⟨S1x1x20000x1, .f32⟩
  | .hbm, ⟨44, _⟩ => ⟨S1x1x20000x1, .i1⟩
  | .hbm, ⟨45, _⟩ => ⟨S_, .f32⟩
  | .hbm, ⟨46, _⟩ => ⟨S20000, .f32⟩
  | .hbm, ⟨47, _⟩ => ⟨S20000, .f32⟩
  | .hbm, ⟨48, _⟩ => ⟨S1x1x20000x1, .f32⟩
  | .hbm, ⟨49, _⟩ => ⟨S4x12x20000x16, .f32⟩
  | .hbm, ⟨50, _⟩ => ⟨S4x12x20000x16, .f32⟩
  | .hbm, ⟨51, _⟩ => ⟨S_, .f32⟩
  | .hbm, ⟨52, _⟩ => ⟨S_, .f32⟩
  | .hbm, ⟨53, _⟩ => ⟨S4x12x20000x16, .i1⟩
  | .hbm, ⟨54, _⟩ => ⟨S4x12x20000x16, .f32⟩
  | .hbm, ⟨55, _⟩ => ⟨S4x12x20000x16, .f32⟩
  | .hbm, ⟨56, _⟩ => ⟨S4x20000x12x16, .f32⟩
  | .hbm, ⟨57, _⟩ => ⟨S4x20000x192, .f32⟩
  | .hbm, ⟨58, _⟩ => ⟨S4x20000x12x8, .f32⟩
  | .hbm, ⟨59, _⟩ => ⟨S4x20000x96, .f32⟩
  | .hbm, ⟨60, _⟩ => ⟨S4x20000x288, .f32⟩
  | .hbm, ⟨61, _⟩ => ⟨S80000x288, .f32⟩
  | .hbm, ⟨62, _⟩ => ⟨S_, .f32⟩
  | .hbm, ⟨63, _⟩ => ⟨S288x128, .f32⟩
  | .hbm, ⟨64, _⟩ => ⟨S_, .i32⟩
  | .hbm, ⟨65, _⟩ => ⟨S1, .i32⟩
  | .hbm, ⟨66, _⟩ => ⟨S288x128, .f32⟩
  | .hbm, ⟨67, _⟩ => ⟨S_, .f32⟩
  | .hbm, ⟨68, _⟩ => ⟨S128, .f32⟩
  | .hbm, ⟨69, _⟩ => ⟨S_, .i32⟩
  | .hbm, ⟨70, _⟩ => ⟨S1, .i32⟩
  | .hbm, ⟨71, _⟩ => ⟨S128, .f32⟩
  | .hbm, ⟨72, _⟩ => ⟨S1x288, .f32⟩
  | .hbm, ⟨73, _⟩ => ⟨S1x128, .f32⟩
  | .hbm, ⟨74, _⟩ => ⟨S80000x128, .f32⟩
  | .hbm, ⟨75, _⟩ => ⟨S80000x24, .f32⟩
  | .hbm, ⟨76, _⟩ => ⟨S4x20000x12x2, .f32⟩
  | .hbm, ⟨77, _⟩ => ⟨S4x20000x12x1, .f32⟩
  | .hbm, ⟨78, _⟩ => ⟨S4x20000x12, .f32⟩
  | .hbm, ⟨79, _⟩ => ⟨S4x12x20000, .f32⟩
  | .hbm, ⟨80, _⟩ => ⟨S4x20000x12x1, .f32⟩
  | .hbm, ⟨81, _⟩ => ⟨S4x20000x12, .f32⟩
  | .hbm, ⟨82, _⟩ => ⟨S_, .f32⟩
  | .hbm, ⟨83, _⟩ => ⟨S4x20000x12, .f32⟩
  | .hbm, ⟨84, _⟩ => ⟨S4x20000x12, .f32⟩
  | .hbm, ⟨85, _⟩ => ⟨S4x20000x12, .f32⟩
  | .hbm, ⟨86, _⟩ => ⟨S4x20000x12, .f32⟩
  | .hbm, ⟨87, _⟩ => ⟨S4x20000x12, .i1⟩
  | .hbm, ⟨88, _⟩ => ⟨S4x20000x12, .f32⟩
  | .hbm, ⟨89, _⟩ => ⟨S4x20000x12, .f32⟩
  | .hbm, ⟨90, _⟩ => ⟨S4x20000x12, .f32⟩
  | .hbm, ⟨91, _⟩ => ⟨S4x20000x12, .f32⟩
  | .hbm, ⟨92, _⟩ => ⟨S4x20000x12, .f32⟩
  | .hbm, ⟨93, _⟩ => ⟨S4x20000x12, .f32⟩
  | .hbm, ⟨94, _⟩ => ⟨S4x20000x12, .f32⟩
  | .hbm, ⟨95, _⟩ => ⟨S4x20000x12, .f32⟩
  | .hbm, ⟨96, _⟩ => ⟨S_, .f32⟩
  | .hbm, ⟨97, _⟩ => ⟨S4x20000x12, .f32⟩
  | .hbm, ⟨98, _⟩ => ⟨S4x20000x12, .f32⟩
  | .hbm, ⟨99, _⟩ => ⟨S4x12x20000, .f32⟩
  | .local _ .vmem, ⟨0, _⟩ => ⟨S4000x288, .f32⟩
  | .local _ .vmem, ⟨1, _⟩ => ⟨S4000x288, .f32⟩
  | .local _ .vmem, ⟨2, _⟩ => ⟨S288x288, .f32⟩
  | .local _ .vmem, ⟨3, _⟩ => ⟨S1x288, .f32⟩
  | .local _ .vmem, ⟨4, _⟩ => ⟨S288x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S4x12x2000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_c_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v55 : Ref sig .tc := ⟨.hbm, 95, rfl⟩
abbrev main_cst_14 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S4x12x20000x16 : S_.BroadcastsInDim S4x12x20000x16 (![] : Fin 0 → Fin S4x12x20000x16.rank)
  bcast_S_S20000 : S_.BroadcastsInDim S20000 (![] : Fin 0 → Fin S20000.rank)
  bcast_S20000_S1x1x20000x1_2 : S20000.BroadcastsInDim S1x1x20000x1 (![2] : Fin 1 → Fin S1x1x20000x1.rank)
  bcast_S_S1x1x20000x1 : S_.BroadcastsInDim S1x1x20000x1 (![] : Fin 0 → Fin S1x1x20000x1.rank)
  bcast_S1x1x20000x1_S4x12x20000x16_0_1_2_3 : S1x1x20000x1.BroadcastsInDim S4x12x20000x16 (![0, 1, 2, 3] : Fin 4 → Fin S4x12x20000x16.rank)
  transposes_S4x12x20000x16_S4x20000x12x16_0_2_1_3 : S4x12x20000x16.Transposes [0, 2, 1, 3] S4x20000x12x16
  shapeCasts_S4x20000x12x16_S4x20000x192 : S4x20000x12x16.ShapeCasts S4x20000x192
  transposes_S4x12x20000x8_S4x20000x12x8_0_2_1_3 : S4x12x20000x8.Transposes [0, 2, 1, 3] S4x20000x12x8
  shapeCasts_S4x20000x12x8_S4x20000x96 : S4x20000x12x8.ShapeCasts S4x20000x96
  concatenates_S4x20000x96_S4x20000x192_S4x20000x288_d2 : Shape.Concatenates [S4x20000x96, S4x20000x192] S4x20000x288 2
  shapeCasts_S4x20000x288_S80000x288 : S4x20000x288.ShapeCasts S80000x288
  bcast_S_S288x128 : S_.BroadcastsInDim S288x128 (![] : Fin 0 → Fin S288x128.rank)
  bcast_S_S1 : S_.BroadcastsInDim S1 (![] : Fin 0 → Fin S1.rank)
  bcast_S_S128 : S_.BroadcastsInDim S128 (![] : Fin 0 → Fin S128.rank)
  shapeCasts_S288_S1x288 : S288.ShapeCasts S1x288
  shapeCasts_S128_S1x128 : S128.ShapeCasts S1x128
  inb_S4000x288_S4000x288_0_0 : ∀ a, (![0, 0] : Fin 2 → Nat) a + S4000x288.size a ≤ S4000x288.size a
  h_S4000x288 : 0 < S4000x288.numel
  shapeCasts_S4000x288_S4000x288 : S4000x288.ShapeCasts S4000x288
  bitsLt_bf16_f32 : FTy.bits .bf16 < FTy.bits .f32
  inb_S288x288_S288x288_0_0 : ∀ a, (![0, 0] : Fin 2 → Nat) a + S288x288.size a ≤ S288x288.size a
  h_S288x288 : 0 < S288x288.numel
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S4000x288 : S1x288.Broadcasts S4000x288
  inb_S288x128_S288x128_0_0 : ∀ a, (![0, 0] : Fin 2 → Nat) a + S288x128.size a ≤ S288x128.size a
  h_S288x128 : 0 < S288x128.numel
  shapeCasts_S288x128_S288x128 : S288x128.ShapeCasts S288x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S80000x128_S80000x24_0_0 : S80000x128.Slices ![0, 0] S80000x24
  shapeCasts_S80000x24_S4x20000x12x2 : S80000x24.ShapeCasts S4x20000x12x2
  slices_S4x20000x12x2_S4x20000x12x1_0_0_0_0 : S4x20000x12x2.Slices ![0, 0, 0, 0] S4x20000x12x1
  shapeCasts_S4x20000x12x1_S4x20000x12 : S4x20000x12x1.ShapeCasts S4x20000x12
  transposes_S4x20000x12_S4x12x20000_0_2_1 : S4x20000x12.Transposes [0, 2, 1] S4x12x20000
  slices_S4x20000x12x2_S4x20000x12x1_0_0_0_1 : S4x20000x12x2.Slices ![0, 0, 0, 1] S4x20000x12x1
  bcast_S_S4x20000x12 : S_.BroadcastsInDim S4x20000x12 (![] : Fin 0 → Fin S4x20000x12.rank)
  gather_S4x12x2000x16_S160000x1_S4x12x160000x16_013_2_n_n_2_1_412116_wf : GatherDims.WF S4x12x2000x16 S160000x1 S4x12x160000x16 [0, 1, 3] [2] [] [2] [] 1 ![4, 12, 1, 16]
  scatter_S4x12x20000x16_S160000x1_S4x12x160000x16_013_2_2_1_wf : ScatterDims.WF S4x12x20000x16 S160000x1 S4x12x160000x16 [0, 1, 3] [2] [2] 1
  scatter_S20000_S160000x1_S160000_n_0_0_1_wf : ScatterDims.WF S20000 S160000x1 S160000 [] [0] [0] 1
  scatter_S288x128_S1_S288x24_01_n_1_0_wf : ScatterDims.WF S288x128 S1 S288x24 [0, 1] [] [1] 0
  scatter_S128_S1_S24_0_n_0_0_wf : ScatterDims.WF S128 S1 S24 [0] [] [0] 0
  dot_S4000x288_S288x288_S4000x288_1_0_0_1_n_n_wf : DotDims.WF S4000x288 S288x288 S4000x288 [1] [0] [0] [1] [] []
  dot_S4000x288_S288x128_S4000x128_1_0_0_1_n_n_wf : DotDims.WF S4000x288 S288x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x288.size a ≤ S80000x288.size a
  hwx0_0 : ∀ i : grid0.Coords, EltTy.bits .f32 = 32 ∨ (Rect.block (s := S80000x288) S4000x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x288.size a ≤ S288x288.size a
  hwx0_1 : ∀ i : grid0.Coords, EltTy.bits .f32 = 32 ∨ (Rect.block (s := S288x288) S288x288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x288.size a ≤ S1x288.size a
  hwx0_2 : ∀ i : grid0.Coords, EltTy.bits .f32 = 32 ∨ (Rect.block (s := S1x288) S1x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x128.size a ≤ S288x128.size a
  hwx0_3 : ∀ i : grid0.Coords, EltTy.bits .f32 = 32 ∨ (Rect.block (s := S288x128) S288x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S80000x128.size a
  hwx0_5 : ∀ i : grid0.Coords, EltTy.bits .f32 = 32 ∨ (Rect.block (s := S80000x128) S4000x128.size (cc0_transform_5 i) (hinb0_5 i)).WholeWords (EltTy.packing .f32)

variable [Facts₀]

def gather_S4x12x2000x16_S160000x1_S4x12x160000x16_013_2_n_n_2_1_412116 : GatherDims S4x12x2000x16 S160000x1 S4x12x160000x16 where
  offsetDims := [0, 1, 3]
  collapsedSliceDims := [2]
  operandBatchingDims := []
  startIndicesBatchingDims := []
  startIndexMap := [2]
  indexVectorDim := 1
  sliceSizes := ![4, 12, 1, 16]
  wf := gather_S4x12x2000x16_S160000x1_S4x12x160000x16_013_2_n_n_2_1_412116_wf
def scatter_S4x12x20000x16_S160000x1_S4x12x160000x16_013_2_2_1 : ScatterDims S4x12x20000x16 S160000x1 S4x12x160000x16 where
  updateWindowDims := [0, 1, 3]
  insertedWindowDims := [2]
  scatterDimsToOperandDims := [2]
  indexVectorDim := 1
  wf := scatter_S4x12x20000x16_S160000x1_S4x12x160000x16_013_2_2_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def scatter_S288x128_S1_S288x24_01_n_1_0 : ScatterDims S288x128 S1 S288x24 where
  updateWindowDims := [0, 1]
  insertedWindowDims := []
  scatterDimsToOperandDims := [1]
  indexVectorDim := 0
  wf := scatter_S288x128_S1_S288x24_01_n_1_0_wf
def scatter_S128_S1_S24_0_n_0_0 : ScatterDims S128 S1 S24 where
  updateWindowDims := [0]
  insertedWindowDims := []
  scatterDimsToOperandDims := [0]
  indexVectorDim := 0
  wf := scatter_S128_S1_S24_0_n_0_0_wf
def dot_S4000x288_S288x288_S4000x288_1_0_0_1_n_n : DotDims S4000x288 S288x288 S4000x288 where
  lhsContracting := [1]
  rhsContracting := [0]
  lhsNonContracting := [0]
  rhsNonContracting := [1]
  lhsBatch := []
  rhsBatch := []
  wf := dot_S4000x288_S288x288_S4000x288_1_0_0_1_n_n_wf
def dot_S4000x288_S288x128_S4000x128_1_0_0_1_n_n : DotDims S4000x288 S288x128 S4000x128 where
  lhsContracting := [1]
  rhsContracting := [0]
  lhsNonContracting := [0]
  rhsNonContracting := [1]
  lhsBatch := []
  rhsBatch := []
  wf := dot_S4000x288_S288x128_S4000x128_1_0_0_1_n_n_wf

abbrev win0_0 : Pipeline.Window sig grid0 :=
  Pipeline.Window.ofSpec (Memref.whole main_v38) S4000x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S288x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S288x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x12x2000x16 : Shape := ⟨4, ![4, 12, 2000, 16]⟩
abbrev S4x12x20000x8 : Shape := ⟨4, ![4, 12, 20000, 8]⟩
abbrev S160000 : Shape := ⟨1, ![160000]⟩
abbrev S288x288 : Shape := ⟨2, ![288, 288]⟩
abbrev S288 : Shape := ⟨1, ![288]⟩
abbrev S288x24 : Shape := ⟨2, ![288, 24]⟩
abbrev S24 : Shape := ⟨1, ![24]⟩
abbrev S_ : Shape := ⟨0, ![]⟩
abbrev S160000x1 : Shape := ⟨2, ![160000, 1]⟩
abbrev S4x12x160000x16 : Shape := ⟨4, ![4, 12, 160000, 16]⟩
abbrev S4x12x20000x16 : Shape := ⟨4, ![4, 12, 20000, 16]⟩
abbrev S20000 : Shape := ⟨1, ![20000]⟩
abbrev S1x1x20000x1 : Shape := ⟨4, ![1, 1, 20000, 1]⟩
abbrev S4x20000x12x16 : Shape := ⟨4, ![4, 20000, 12, 16]⟩
abbrev S4x20000x192 : Shape := ⟨3, ![4, 20000, 192]⟩
abbrev S4x20000x12x8 : Shape := ⟨4, ![4, 20000, 12, 8]⟩
abbrev S4x20000x96 : Shape := ⟨3, ![4, 20000, 96]⟩
abbrev S4x20000x288 : Shape := ⟨3, ![4, 20000, 288]⟩
abbrev S1x1x288 : Shape := ⟨3, ![1, 1, 288]⟩
abbrev S4x20000x24 : Shape := ⟨3, ![4, 20000, 24]⟩
abbrev S1x1x24 : Shape := ⟨3, ![1, 1, 24]⟩
abbrev S4x20000x12x2 : Shape := ⟨4, ![4, 20000, 12, 2]⟩
abbrev S4x20000x12x1 : Shape := ⟨4, ![4, 20000, 12, 1]⟩
abbrev S4x20000x12 : Shape := ⟨3, ![4, 20000, 12]⟩
abbrev S4x12x20000 : Shape := ⟨3, ![4, 12, 20000]⟩

abbrev nBuf : Space → Nat
  | .hbm => 96
  | .vmem => 0
  | .smem => 0
  | _ => 0

abbrev bufTy : (tb : Table) → Fin (tcTables nBuf tb) → BufTy
  | .hbm, ⟨0, _⟩ => ⟨S4x12x2000x16, .f32⟩
  | .hbm, ⟨1, _⟩ => ⟨S4x12x20000x8, .f32⟩
  | .hbm, ⟨2, _⟩ => ⟨S160000, .i32⟩
  | .hbm, ⟨3, _⟩ => ⟨S160000, .i32⟩
  | .hbm, ⟨4, _⟩ => ⟨S288x288, .f32⟩
  | .hbm, ⟨5, _⟩ => ⟨S288, .f32⟩
  | .hbm, ⟨6, _⟩ => ⟨S288x24, .f32⟩
  | .hbm, ⟨7, _⟩ => ⟨S24, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S4x12x160000x16, .f32⟩
  | .hbm, ⟨17, _⟩ => ⟨S_, .f32⟩
  | .hbm, ⟨18, _⟩ => ⟨S4x12x20000x16, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S4x12x20000x16, .f32⟩
  | .hbm, ⟨28, _⟩ => ⟨S_, .f32⟩
  | .hbm, ⟨29, _⟩ => ⟨S20000, .f32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S_, .f32⟩
  | .hbm, ⟨39, _⟩ => ⟨S160000, .f32⟩
  | .hbm, ⟨40, _⟩ => ⟨S20000, .f32⟩
  | .hbm, ⟨41, _⟩ => ⟨S1x1x20000x1, .f32⟩
  | .hbm, ⟨42, _⟩ => ⟨S_, .f32⟩
  | .hbm, ⟨43, _⟩ => ⟨S1x1x20000x1, .f32⟩
  | .hbm, ⟨44, _⟩ => ⟨S1x1x20000x1, .i1⟩
  | .hbm, ⟨45, _⟩ => ⟨S_, .f32⟩
  | .hbm, ⟨46, _⟩ => ⟨S20000, .f32⟩
  | .hbm, ⟨47, _⟩ => ⟨S20000, .f32⟩
  | .hbm, ⟨48, _⟩ => ⟨S1x1x20000x1, .f32⟩
  | .hbm, ⟨49, _⟩ => ⟨S4x12x20000x16, .f32⟩
  | .hbm, ⟨50, _⟩ => ⟨S4x12x20000x16, .f32⟩
  | .hbm, ⟨51, _⟩ => ⟨S_, .f32⟩
  | .hbm, ⟨52, _⟩ => ⟨S_, .f32⟩
  | .hbm, ⟨53, _⟩ => ⟨S4x12x20000x16, .i1⟩
  | .hbm, ⟨54, _⟩ => ⟨S4x12x20000x16, .f32⟩
  | .hbm, ⟨55, _⟩ => ⟨S4x12x20000x16, .f32⟩
  | .hbm, ⟨56, _⟩ => ⟨S4x20000x12x16, .f32⟩
  | .hbm, ⟨57, _⟩ => ⟨S4x20000x192, .f32⟩
  | .hbm, ⟨58, _⟩ => ⟨S4x20000x12x8, .f32⟩
  | .hbm, ⟨59, _⟩ => ⟨S4x20000x96, .f32⟩
  | .hbm, ⟨60, _⟩ => ⟨S4x20000x288, .f32⟩
  | .hbm, ⟨61, _⟩ => ⟨S4x20000x288, .f32⟩
  | .hbm, ⟨62, _⟩ => ⟨S1x1x288, .f32⟩
  | .hbm, ⟨63, _⟩ => ⟨S4x20000x288, .f32⟩
  | .hbm, ⟨64, _⟩ => ⟨S4x20000x288, .f32⟩
  | .hbm, ⟨65, _⟩ => ⟨S_, .f32⟩
  | .hbm, ⟨66, _⟩ => ⟨S4x20000x288, .f32⟩
  | .hbm, ⟨67, _⟩ => ⟨S4x20000x288, .f32⟩
  | .hbm, ⟨68, _⟩ => ⟨S4x20000x24, .f32⟩
  | .hbm, ⟨69, _⟩ => ⟨S1x1x24, .f32⟩
  | .hbm, ⟨70, _⟩ => ⟨S4x20000x24, .f32⟩
  | .hbm, ⟨71, _⟩ => ⟨S4x20000x24, .f32⟩
  | .hbm, ⟨72, _⟩ => ⟨S4x20000x12x2, .f32⟩
  | .hbm, ⟨73, _⟩ => ⟨S4x20000x12x1, .f32⟩
  | .hbm, ⟨74, _⟩ => ⟨S4x20000x12, .f32⟩
  | .hbm, ⟨75, _⟩ => ⟨S4x12x20000, .f32⟩
  | .hbm, ⟨76, _⟩ => ⟨S4x20000x12x1, .f32⟩
  | .hbm, ⟨77, _⟩ => ⟨S4x20000x12, .f32⟩
  | .hbm, ⟨78, _⟩ => ⟨S_, .f32⟩
  | .hbm, ⟨79, _⟩ => ⟨S4x20000x12, .f32⟩
  | .hbm, ⟨80, _⟩ => ⟨S4x20000x12, .f32⟩
  | .hbm, ⟨81, _⟩ => ⟨S4x20000x12, .f32⟩
  | .hbm, ⟨82, _⟩ => ⟨S4x20000x12, .f32⟩
  | .hbm, ⟨83, _⟩ => ⟨S4x20000x12, .i1⟩
  | .hbm, ⟨84, _⟩ => ⟨S4x20000x12, .f32⟩
  | .hbm, ⟨85, _⟩ => ⟨S4x20000x12, .f32⟩
  | .hbm, ⟨86, _⟩ => ⟨S4x20000x12, .f32⟩
  | .hbm, ⟨87, _⟩ => ⟨S4x20000x12, .f32⟩
  | .hbm, ⟨88, _⟩ => ⟨S4x20000x12, .f32⟩
  | .hbm, ⟨89, _⟩ => ⟨S4x20000x12, .f32⟩
  | .hbm, ⟨90, _⟩ => ⟨S4x20000x12, .f32⟩
  | .hbm, ⟨91, _⟩ => ⟨S4x20000x12, .f32⟩
  | .hbm, ⟨92, _⟩ => ⟨S_, .f32⟩
  | .hbm, ⟨93, _⟩ => ⟨S4x20000x12, .f32⟩
  | .hbm, ⟨94, _⟩ => ⟨S4x20000x12, .f32⟩
  | .hbm, ⟨95, _⟩ => ⟨S4x12x20000, .f32⟩
  | _, _ => ⟨S4x12x2000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S4x12x20000x16 : S_.BroadcastsInDim S4x12x20000x16 (![] : Fin 0 → Fin S4x12x20000x16.rank)
  bcast_S_S20000 : S_.BroadcastsInDim S20000 (![] : Fin 0 → Fin S20000.rank)
  bcast_S20000_S1x1x20000x1_2 : S20000.BroadcastsInDim S1x1x20000x1 (![2] : Fin 1 → Fin S1x1x20000x1.rank)
  bcast_S_S1x1x20000x1 : S_.BroadcastsInDim S1x1x20000x1 (![] : Fin 0 → Fin S1x1x20000x1.rank)
  bcast_S1x1x20000x1_S4x12x20000x16_0_1_2_3 : S1x1x20000x1.BroadcastsInDim S4x12x20000x16 (![0, 1, 2, 3] : Fin 4 → Fin S4x12x20000x16.rank)
  transposes_S4x12x20000x16_S4x20000x12x16_0_2_1_3 : S4x12x20000x16.Transposes [0, 2, 1, 3] S4x20000x12x16
  shapeCasts_S4x20000x12x16_S4x20000x192 : S4x20000x12x16.ShapeCasts S4x20000x192
  transposes_S4x12x20000x8_S4x20000x12x8_0_2_1_3 : S4x12x20000x8.Transposes [0, 2, 1, 3] S4x20000x12x8
  shapeCasts_S4x20000x12x8_S4x20000x96 : S4x20000x12x8.ShapeCasts S4x20000x96
  concatenates_S4x20000x96_S4x20000x192_S4x20000x288_d2 : Shape.Concatenates [S4x20000x96, S4x20000x192] S4x20000x288 2
  bcast_S288_S1x1x288_2 : S288.BroadcastsInDim S1x1x288 (![2] : Fin 1 → Fin S1x1x288.rank)
  bcast_S1x1x288_S4x20000x288_0_1_2 : S1x1x288.BroadcastsInDim S4x20000x288 (![0, 1, 2] : Fin 3 → Fin S4x20000x288.rank)
  bcast_S_S4x20000x288 : S_.BroadcastsInDim S4x20000x288 (![] : Fin 0 → Fin S4x20000x288.rank)
  bcast_S24_S1x1x24_2 : S24.BroadcastsInDim S1x1x24 (![2] : Fin 1 → Fin S1x1x24.rank)
  bcast_S1x1x24_S4x20000x24_0_1_2 : S1x1x24.BroadcastsInDim S4x20000x24 (![0, 1, 2] : Fin 3 → Fin S4x20000x24.rank)
  shapeCasts_S4x20000x24_S4x20000x12x2 : S4x20000x24.ShapeCasts S4x20000x12x2
  slices_S4x20000x12x2_S4x20000x12x1_0_0_0_0 : S4x20000x12x2.Slices ![0, 0, 0, 0] S4x20000x12x1
  shapeCasts_S4x20000x12x1_S4x20000x12 : S4x20000x12x1.ShapeCasts S4x20000x12
  transposes_S4x20000x12_S4x12x20000_0_2_1 : S4x20000x12.Transposes [0, 2, 1] S4x12x20000
  slices_S4x20000x12x2_S4x20000x12x1_0_0_0_1 : S4x20000x12x2.Slices ![0, 0, 0, 1] S4x20000x12x1
  bcast_S_S4x20000x12 : S_.BroadcastsInDim S4x20000x12 (![] : Fin 0 → Fin S4x20000x12.rank)
  gather_S4x12x2000x16_S160000x1_S4x12x160000x16_013_2_n_n_2_1_412116_wf : GatherDims.WF S4x12x2000x16 S160000x1 S4x12x160000x16 [0, 1, 3] [2] [] [2] [] 1 ![4, 12, 1, 16]
  scatter_S4x12x20000x16_S160000x1_S4x12x160000x16_013_2_2_1_wf : ScatterDims.WF S4x12x20000x16 S160000x1 S4x12x160000x16 [0, 1, 3] [2] [2] 1
  scatter_S20000_S160000x1_S160000_n_0_0_1_wf : ScatterDims.WF S20000 S160000x1 S160000 [] [0] [0] 1
  dot_S4x20000x288_S288x288_S4x20000x288_2_0_01_1_n_n_wf : DotDims.WF S4x20000x288 S288x288 S4x20000x288 [2] [0] [0, 1] [1] [] []
  dot_S4x20000x288_S288x24_S4x20000x24_2_0_01_1_n_n_wf : DotDims.WF S4x20000x288 S288x24 S4x20000x24 [2] [0] [0, 1] [1] [] []

variable [Facts₀]

def gather_S4x12x2000x16_S160000x1_S4x12x160000x16_013_2_n_n_2_1_412116 : GatherDims S4x12x2000x16 S160000x1 S4x12x160000x16 where
  offsetDims := [0, 1, 3]
  collapsedSliceDims := [2]
  operandBatchingDims := []
  startIndicesBatchingDims := []
  startIndexMap := [2]
  indexVectorDim := 1
  sliceSizes := ![4, 12, 1, 16]
  wf := gather_S4x12x2000x16_S160000x1_S4x12x160000x16_013_2_n_n_2_1_412116_wf
def scatter_S4x12x20000x16_S160000x1_S4x12x160000x16_013_2_2_1 : ScatterDims S4x12x20000x16 S160000x1 S4x12x160000x16 where
  updateWindowDims := [0, 1, 3]
  insertedWindowDims := [2]
  scatterDimsToOperandDims := [2]
  indexVectorDim := 1
  wf := scatter_S4x12x20000x16_S160000x1_S4x12x160000x16_013_2_2_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S4x20000x288_S288x288_S4x20000x288_2_0_01_1_n_n : DotDims S4x20000x288 S288x288 S4x20000x288 where
  lhsContracting := [2]
  rhsContracting := [0]
  lhsNonContracting := [0, 1]
  rhsNonContracting := [1]
  lhsBatch := []
  rhsBatch := []
  wf := dot_S4x20000x288_S288x288_S4x20000x288_2_0_01_1_n_n_wf
def dot_S4x20000x288_S288x24_S4x20000x24_2_0_01_1_n_n : DotDims S4x20000x288 S288x24 S4x20000x24 where
  lhsContracting := [2]
  rhsContracting := [0]
  lhsNonContracting := [0, 1]
  rhsNonContracting := [1]
  lhsBatch := []
  rhsBatch := []
  wf := dot_S4x20000x288_S288x24_S4x20000x24_2_0_01_1_n_n_wf

class Facts : Prop extends Facts₀ where

variable [Facts]
-- ==== Proof.Shared.lean ====
/-
  What the two programs share: the prologue before the network and the epilogue after it.

  PROLOGUE. Every membership entry `e` names a patch `batch e` and a node `mapper e` (a negative index wraps around once).
  The patch features are gathered per entry, summed into the entry's node, and divided by the number of entries of the node
  (by 1 where there is none, and the quotient replaced by zero there): the mean patch feature of each node. The node's own
  features and these means, each with the time axis moved next to the feature axis and merged into it, are joined along the
  feature axis into a [4, 20000, 288] array.

  EPILOGUE. The network's 24 outputs per node are 12 pairs; the first component of each pair is the mean `mu`, the second goes
  through softplus (written as jax does: `max x 0 + log1p (exp (-|x|))`, with the guard for a non-number) and gets the
  constant `1e-6` added: `sigma`; both are returned with the pair axis before the node axis.

  Both programs apply exactly these operations, so they are carried here as three functions and never opened.
-/
import proofs.«125783_j79937931313654_1_alg».proof.Proof.Gen.ReferenceIdeal
import Idealize.ShloMosaic.PureOps.Ideal

noncomputable section

namespace Cert.ReferenceIdeal.Shared

open Cert.ReferenceIdeal Cert.ReferenceIdeal.Gen Idealize.ShloMosaic

/-- An index array with negative entries wrapped around once by `n`, as a column. -/
def wrap (x : (⟨S160000, .i32⟩ : BufTy).Contents (Elt Ideal)) (n : BitVec 32) : (⟨S160000x1, .i32⟩ : BufTy).Contents (Elt Ideal) :=
  broadcastInDim S160000x1 ![0] bcast_S160000_S160000x1_0 (select (cmpi .slt x (broadcastInDim S160000 ![] bcast_S_S160000 (constantI S_ 32 0#32))) (addi x (broadcastInDim S160000 ![] bcast_S_S160000 (constantI S_ 32 n))) x)

/-- How many membership entries name each node. -/
def counts (x3 : (⟨S160000, .i32⟩ : BufTy).Contents (Elt Ideal)) : FVec Ideal S20000 .f32 :=
  Host.scatterAdd scatter_S20000_S160000x1_S160000_n_0_0_1 (broadcastInDim S20000 ![] bcast_S_S20000 (constant (F := Ideal) S_ .f32 0x00000000#32)) (wrap x3 20000#32) (broadcastInDim S160000 ![] bcast_S_S160000 (constant (F := Ideal) S_ .f32 0x3F800000#32))

/-- The mean patch feature of each node (zero for a node no entry names). -/
def nodeMean (x0 : FVec Ideal S4x12x2000x16 .f32) (x2 x3 : (⟨S160000, .i32⟩ : BufTy).Contents (Elt Ideal)) : FVec Ideal S4x12x20000x16 .f32 :=
  select (broadcastInDim S4x12x20000x16 ![0, 1, 2, 3] bcast_S1x1x20000x1_S4x12x20000x16_0_1_2_3 (cmpf .ogt (broadcastInDim S1x1x20000x1 ![2] bcast_S20000_S1x1x20000x1_2 (counts x3)) (broadcastInDim S1x1x20000x1 ![] bcast_S_S1x1x20000x1 (constant (F := Ideal) S_ .f32 0x00000000#32))))
    (Host.divf (Host.scatterAdd scatter_S4x12x20000x16_S160000x1_S4x12x160000x16_013_2_2_1 (broadcastInDim S4x12x20000x16 ![] bcast_S_S4x12x20000x16 (constant (F := Ideal) S_ .f32 0x00000000#32)) (wrap x3 20000#32) (Host.gather gather_S4x12x2000x16_S160000x1_S4x12x160000x16_013_2_n_n_2_1_412116 x0 (wrap x2 2000#32)))
      (broadcastInDim S4x12x20000x16 ![0, 1, 2, 3] bcast_S1x1x20000x1_S4x12x20000x16_0_1_2_3 (broadcastInDim S1x1x20000x1 ![2] bcast_S20000_S1x1x20000x1_2 (maximumf (counts x3) (broadcastInDim S20000 ![] bcast_S_S20000 (constant (F := Ideal) S_ .f32 0x3F800000#32))))))
    (broadcastInDim S4x12x20000x16 ![] bcast_S_S4x12x20000x16 (id (constant (F := Ideal) S_ .f32 0x00000000#32)))

/-- The network's input: per batch and node, the node's 96 own features followed by its 192 mean patch features. -/
def head (x0 : FVec Ideal S4x12x2000x16 .f32) (x1 : FVec Ideal S4x12x20000x8 .f32) (x2 x3 : (⟨S160000, .i32⟩ : BufTy).Contents (Elt Ideal)) :
    FVec Ideal S4x20000x288 .f32 :=
  concatenate S4x20000x288 2 [⟨S4x20000x96, (shapeCast _ (transpose S4x20000x12x8 [0, 2, 1, 3] x1 transposes_S4x12x20000x8_S4x20000x12x8_0_2_1_3) shapeCasts_S4x20000x12x8_S4x20000x96)⟩, ⟨S4x20000x192, (shapeCast _ (transpose S4x20000x12x16 [0, 2, 1, 3] (nodeMean x0 x2 x3) transposes_S4x12x20000x16_S4x20000x12x16_0_2_1_3) shapeCasts_S4x20000x12x16_S4x20000x192)⟩] concatenates_S4x20000x96_S4x20000x192_S4x20000x288_d2

/-- `mu`: the first component of every pair, the pair axis before the node axis. -/
def tailMu (Y : FVec Ideal S4x20000x12x2 .f32) : FVec Ideal S4x12x20000 .f32 :=
  transpose S4x12x20000 [0, 2, 1] (shapeCast _ (extractStridedSlice S4x20000x12x1 ![0, 0, 0, 0] Y slices_S4x20000x12x2_S4x20000x12x1_0_0_0_0) shapeCasts_S4x20000x12x1_S4x20000x12) transposes_S4x20000x12_S4x12x20000_0_2_1

/-- softplus plus the constant, of a [4, 20000, 12] array, the pair axis then moved before the node axis. -/
def softplusEps (Z : FVec Ideal S4x20000x12 .f32) : FVec Ideal S4x12x20000 .f32 :=
  transpose S4x12x20000 [0, 2, 1] (addf (select (cmpf .une (subf Z (broadcastInDim S4x20000x12 ![] bcast_S_S4x20000x12 (constant (F := Ideal) S_ .f32 0x00000000#32))) (subf Z (broadcastInDim S4x20000x12 ![] bcast_S_S4x20000x12 (constant (F := Ideal) S_ .f32 0x00000000#32)))) (addf Z (broadcastInDim S4x20000x12 ![] bcast_S_S4x20000x12 (constant (F := Ideal) S_ .f32 0x00000000#32))) (addf (maximumf Z (broadcastInDim S4x20000x12 ![] bcast_S_S4x20000x12 (constant (F := Ideal) S_ .f32 0x00000000#32))) (Host.log1p (Host.exp (Host.negf (Host.absf (subf Z (broadcastInDim S4x20000x12 ![] bcast_S_S4x20000x12 (constant (F := Ideal) S_ .f32 0x00000000#32))))))))) (broadcastInDim S4x20000x12 ![] bcast_S_S4x20000x12 (constant (F := Ideal) S_ .f32 0x358637BD#32))) transposes_S4x20000x12_S4x12x20000_0_2_1

/-- `sigma`: softplus of the second component of every pair, plus the constant. -/
def tailSigma (Y : FVec Ideal S4x20000x12x2 .f32) : FVec Ideal S4x12x20000 .f32 :=
  softplusEps (shapeCast _ (extractStridedSlice S4x20000x12x1 ![0, 0, 0, 1] Y slices_S4x20000x12x2_S4x20000x12x1_0_0_0_1) shapeCasts_S4x20000x12x1_S4x20000x12)

end Cert.ReferenceIdeal.Shared

end
-- ==== Proof.MlpSpec.lean ====
/-
  One row through the two-layer perceptron, over the extended reals.

  For a row `x` of 288 features, a 288 × 288 weight matrix `W₁`, a bias `b₁`, one column `w` of the second weight matrix and
  the matching entry `β` of the second bias, the network's output entry is
  `∑ k, max (∑ i, x i * W₁ i k + b₁ k) 0 * w k + β`.
  The cut-off constant is kept as the word both programs write (the f32 zero word); it is never evaluated.
-/
import Idealize.ShloMosaic.PureOps.Ideal
import Idealize.ShloMosaic.Lib.ValueIdx

noncomputable section

namespace Cert.Mlp

open Idealize.ShloMosaic Idealize.ShloMosaic.ValueIdx

/-- The hidden feature `k` of a row: the row against column `k` of `W₁`, plus the bias, cut off below. -/
def hiddenOf (row : Fin 288 → EReal) (w1 : (⟨2, ![288, 288]⟩ : Shape).Idx → EReal) (b1 : Fin 288 → EReal) (k : Fin 288) : EReal :=
  max ((∑ i : Fin 288, row i * w1 (ix2 i k)) + b1 k) (Ideal.ofBits .f32 0x00000000#32)

/-- One output entry of a row: the hidden features against a column of `W₂`, plus that column's bias. -/
def outOf (row : Fin 288 → EReal) (w1 : (⟨2, ![288, 288]⟩ : Shape).Idx → EReal) (b1 : Fin 288 → EReal)
    (w2col : Fin 288 → EReal) (b2c : EReal) : EReal :=
  (∑ k : Fin 288, hiddenOf row w1 b1 k * w2col k) + b2c

end Cert.Mlp

end
-- ==== Proof.RefMid.lean ====
/-
  The reference's two layers, entry by entry.

  The reference applies the network to a [4, 20000, 288] array of node features: a contraction of the feature axis with `W₁`,
  the bias broadcast over nodes, the cut-off at zero, a contraction with `W₂`, the second bias, and a reshape of the 24 outputs
  of a node into 12 pairs. Read at the extended reals a contraction is the plain sum over the feature axis, so the entry for
  batch `b`, node `n`, pair `h`, component `e` is the network's output entry for that node's row and column `2h + e`.
-/
import proofs.«125783_j79937931313654_1_alg».proof.Proof.Gen.ReferenceIdeal
import proofs.«125783_j79937931313654_1_alg».proof.Proof.MlpSpec
import Idealize.ShloMosaic.Lib.ValueIdx
import Idealize.ShloMosaic.Lib.Pipeline.Value
import Idealize.ShloMosaic.PureOps.Ideal.Laws

noncomputable section

namespace Cert.ReferenceIdeal.Mid

open Cert.ReferenceIdeal Cert.ReferenceIdeal.Gen Idealize.ShloMosaic Idealize.ShloMosaic.ValueIdx

/-! ## The two contractions at an entry -/

theorem l1_0 (i : S4x20000x288.Idx) (q : dot_S4x20000x288_S288x288_S4x20000x288_2_0_01_1_n_n.contr.Idx) : (dot_S4x20000x288_S288x288_S4x20000x288_2_0_01_1_n_n.lhsIdx i q 0).val = (i 0).val := by
  unfold DotDims.lhsIdx
  rw [dif_neg (show ¬(0 : Fin S4x20000x288.rank) ∈ dot_S4x20000x288_S288x288_S4x20000x288_2_0_01_1_n_n.lhsBatch by decide), dif_pos (show (0 : Fin S4x20000x288.rank) ∈ dot_S4x20000x288_S288x288_S4x20000x288_2_0_01_1_n_n.lhsNonContracting by decide)]
  rfl
theorem l1_1 (i : S4x20000x288.Idx) (q : dot_S4x20000x288_S288x288_S4x20000x288_2_0_01_1_n_n.contr.Idx) : (dot_S4x20000x288_S288x288_S4x20000x288_2_0_01_1_n_n.lhsIdx i q 1).val = (i 1).val := by
  unfold DotDims.lhsIdx
  rw [dif_neg (show ¬(1 : Fin S4x20000x288.rank) ∈ dot_S4x20000x288_S288x288_S4x20000x288_2_0_01_1_n_n.lhsBatch by decide), dif_pos (show (1 : Fin S4x20000x288.rank) ∈ dot_S4x20000x288_S288x288_S4x20000x288_2_0_01_1_n_n.lhsNonContracting by decide)]
  rfl
theorem l1_2 (i : S4x20000x288.Idx) (q : dot_S4x20000x288_S288x288_S4x20000x288_2_0_01_1_n_n.contr.Idx) : (dot_S4x20000x288_S288x288_S4x20000x288_2_0_01_1_n_n.lhsIdx i q 2).val = (q ⟨0, by decide⟩).val :=
  dot_S4x20000x288_S288x288_S4x20000x288_2_0_01_1_n_n.lhsIdx_val_of_single rfl i q
theorem r1_0 (i : S4x20000x288.Idx) (q : dot_S4x20000x288_S288x288_S4x20000x288_2_0_01_1_n_n.contr.Idx) : (dot_S4x20000x288_S288x288_S4x20000x288_2_0_01_1_n_n.rhsIdx i q 0).val = (q ⟨0, by decide⟩).val :=
  dot_S4x20000x288_S288x288_S4x20000x288_2_0_01_1_n_n.rhsIdx_val_of_single rfl i q
theorem r1_1 (i : S4x20000x288.Idx) (q : dot_S4x20000x288_S288x288_S4x20000x288_2_0_01_1_n_n.contr.Idx) : (dot_S4x20000x288_S288x288_S4x20000x288_2_0_01_1_n_n.rhsIdx i q 1).val = (i 2).val := by
  unfold DotDims.rhsIdx
  rw [dif_neg (show ¬(1 : Fin S288x288.rank) ∈ dot_S4x20000x288_S288x288_S4x20000x288_2_0_01_1_n_n.rhsBatch by decide), dif_pos (show (1 : Fin S288x288.rank) ∈ dot_S4x20000x288_S288x288_S4x20000x288_2_0_01_1_n_n.rhsNonContracting by decide)]
  rfl

/-- The first contraction: a node's features against column `k` of `W₁`. -/
theorem dg1_apply (l : FVec Ideal S4x20000x288 .f32) (w : FVec Ideal S288x288 .f32) (b : Fin 4) (n : Fin 20000) (k : Fin 288) :
    Host.dotGeneral dot_S4x20000x288_S288x288_S4x20000x288_2_0_01_1_n_n none l w (ix3 b n k) = ∑ i : Fin 288, l (ix3 b n i) * w (ix2 i k) := by
  simp only [Host.dotGeneral]
  rw [Ideal.dotGeneral_apply, ← Equiv.sum_comp (contrEquiv1 dot_S4x20000x288_S288x288_S4x20000x288_2_0_01_1_n_n 288 rfl rfl).symm]
  refine Finset.sum_congr rfl fun i _ => ?_
  have hk := contrEquiv1_symm_val dot_S4x20000x288_S288x288_S4x20000x288_2_0_01_1_n_n 288 rfl rfl i
  have el : dot_S4x20000x288_S288x288_S4x20000x288_2_0_01_1_n_n.lhsIdx (ix3 b n k) ((contrEquiv1 dot_S4x20000x288_S288x288_S4x20000x288_2_0_01_1_n_n 288 rfl rfl).symm i) = ix3 b n i := funext fun a => Fin.ext (by
    match a with
    | ⟨0, _⟩ => exact l1_0 _ _
    | ⟨1, _⟩ => exact l1_1 _ _
    | ⟨2, _⟩ => exact (l1_2 _ _).trans hk)
  have er : dot_S4x20000x288_S288x288_S4x20000x288_2_0_01_1_n_n.rhsIdx (ix3 b n k) ((contrEquiv1 dot_S4x20000x288_S288x288_S4x20000x288_2_0_01_1_n_n 288 rfl rfl).symm i) = ix2 i k := funext fun a => Fin.ext (by
    match a with
    | ⟨0, _⟩ => exact (r1_0 _ _).trans hk
    | ⟨1, _⟩ => exact r1_1 _ _)
  rw [el, er]

theorem l2_0 (i : S4x20000x24.Idx) (q : dot_S4x20000x288_S288x24_S4x20000x24_2_0_01_1_n_n.contr.Idx) : (dot_S4x20000x288_S288x24_S4x20000x24_2_0_01_1_n_n.lhsIdx i q 0).val = (i 0).val := by
  unfold DotDims.lhsIdx
  rw [dif_neg (show ¬(0 : Fin S4x20000x288.rank) ∈ dot_S4x20000x288_S288x24_S4x20000x24_2_0_01_1_n_n.lhsBatch by decide), dif_pos (show (0 : Fin S4x20000x288.rank) ∈ dot_S4x20000x288_S288x24_S4x20000x24_2_0_01_1_n_n.lhsNonContracting by decide)]
  rfl
theorem l2_1 (i : S4x20000x24.Idx) (q : dot_S4x20000x288_S288x24_S4x20000x24_2_0_01_1_n_n.contr.Idx) : (dot_S4x20000x288_S288x24_S4x20000x24_2_0_01_1_n_n.lhsIdx i q 1).val = (i 1).val := by
  unfold DotDims.lhsIdx
  rw [dif_neg (show ¬(1 : Fin S4x20000x288.rank) ∈ dot_S4x20000x288_S288x24_S4x20000x24_2_0_01_1_n_n.lhsBatch by decide), dif_pos (show (1 : Fin S4x20000x288.rank) ∈ dot_S4x20000x288_S288x24_S4x20000x24_2_0_01_1_n_n.lhsNonContracting by decide)]
  rfl
theorem l2_2 (i : S4x20000x24.Idx) (q : dot_S4x20000x288_S288x24_S4x20000x24_2_0_01_1_n_n.contr.Idx) : (dot_S4x20000x288_S288x24_S4x20000x24_2_0_01_1_n_n.lhsIdx i q 2).val = (q ⟨0, by decide⟩).val :=
  dot_S4x20000x288_S288x24_S4x20000x24_2_0_01_1_n_n.lhsIdx_val_of_single rfl i q
theorem r2_0 (i : S4x20000x24.Idx) (q : dot_S4x20000x288_S288x24_S4x20000x24_2_0_01_1_n_n.contr.Idx) : (dot_S4x20000x288_S288x24_S4x20000x24_2_0_01_1_n_n.rhsIdx i q 0).val = (q ⟨0, by decide⟩).val :=
  dot_S4x20000x288_S288x24_S4x20000x24_2_0_01_1_n_n.rhsIdx_val_of_single rfl i q
theorem r2_1 (i : S4x20000x24.Idx) (q : dot_S4x20000x288_S288x24_S4x20000x24_2_0_01_1_n_n.contr.Idx) : (dot_S4x20000x288_S288x24_S4x20000x24_2_0_01_1_n_n.rhsIdx i q 1).val = (i 2).val := by
  unfold DotDims.rhsIdx
  rw [dif_neg (show ¬(1 : Fin S288x24.rank) ∈ dot_S4x20000x288_S288x24_S4x20000x24_2_0_01_1_n_n.rhsBatch by decide), dif_pos (show (1 : Fin S288x24.rank) ∈ dot_S4x20000x288_S288x24_S4x20000x24_2_0_01_1_n_n.rhsNonContracting by decide)]
  rfl

/-- The second contraction: a node's hidden features against column `j` of `W₂`. -/
theorem dg2_apply (l : FVec Ideal S4x20000x288 .f32) (w : FVec Ideal S288x24 .f32) (b : Fin 4) (n : Fin 20000) (j : Fin 24) :
    Host.dotGeneral dot_S4x20000x288_S288x24_S4x20000x24_2_0_01_1_n_n none l w (ix3 b n j) = ∑ k : Fin 288, l (ix3 b n k) * w (ix2 k j) := by
  simp only [Host.dotGeneral]
  rw [Ideal.dotGeneral_apply, ← Equiv.sum_comp (contrEquiv1 dot_S4x20000x288_S288x24_S4x20000x24_2_0_01_1_n_n 288 rfl rfl).symm]
  refine Finset.sum_congr rfl fun k _ => ?_
  have hk := contrEquiv1_symm_val dot_S4x20000x288_S288x24_S4x20000x24_2_0_01_1_n_n 288 rfl rfl k
  have el : dot_S4x20000x288_S288x24_S4x20000x24_2_0_01_1_n_n.lhsIdx (ix3 b n j) ((contrEquiv1 dot_S4x20000x288_S288x24_S4x20000x24_2_0_01_1_n_n 288 rfl rfl).symm k) = ix3 b n k := funext fun a => Fin.ext (by
    match a with
    | ⟨0, _⟩ => exact l2_0 _ _
    | ⟨1, _⟩ => exact l2_1 _ _
    | ⟨2, _⟩ => exact (l2_2 _ _).trans hk)
  have er : dot_S4x20000x288_S288x24_S4x20000x24_2_0_01_1_n_n.rhsIdx (ix3 b n j) ((contrEquiv1 dot_S4x20000x288_S288x24_S4x20000x24_2_0_01_1_n_n 288 rfl rfl).symm k) = ix2 k j := funext fun a => Fin.ext (by
    match a with
    | ⟨0, _⟩ => exact (r2_0 _ _).trans hk
    | ⟨1, _⟩ => exact r2_1 _ _)
  rw [el, er]

/-! ## The biases and the cut-off constant, broadcast over batches and nodes -/

/-- The first bias, made [1, 1, 288] and then broadcast: at node `(b, n)` and feature `k` it is `b₁ k`. -/
theorem bias1_apply (v : FVec Ideal S288 .f32) (b : Fin 4) (n : Fin 20000) (k : Fin 288) :
    broadcastInDim S4x20000x288 ![0, 1, 2] bcast_S1x1x288_S4x20000x288_0_1_2 (broadcastInDim S1x1x288 ![2] bcast_S288_S1x1x288_2 v) (ix3 b n k)
      = v (ix1 k) := by
  refine (broadcastInDim_apply _ bcast_S1x1x288_S4x20000x288_0_1_2 _ (ix3 b n k) (ix3 (0 : Fin 1) (0 : Fin 1) k) (fun a => ?_)).trans ?_
  · match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show k.val = if (288 : Nat) = 1 then 0 else k.val; rw [if_neg (by decide)]
  · refine broadcastInDim_apply _ bcast_S288_S1x1x288_2 v (ix3 (0 : Fin 1) (0 : Fin 1) k) (ix1 k) (fun a => ?_)
    match a with
    | ⟨0, _⟩ => show k.val = if (288 : Nat) = 1 then 0 else k.val; rw [if_neg (by decide)]

/-- The second bias likewise: at node `(b, n)` and output `j` it is `b₂ j`. -/
theorem bias2_apply (v : FVec Ideal S24 .f32) (b : Fin 4) (n : Fin 20000) (j : Fin 24) :
    broadcastInDim S4x20000x24 ![0, 1, 2] bcast_S1x1x24_S4x20000x24_0_1_2 (broadcastInDim S1x1x24 ![2] bcast_S24_S1x1x24_2 v) (ix3 b n j)
      = v (ix1 j) := by
  refine (broadcastInDim_apply _ bcast_S1x1x24_S4x20000x24_0_1_2 _ (ix3 b n j) (ix3 (0 : Fin 1) (0 : Fin 1) j) (fun a => ?_)).trans ?_
  · match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show j.val = if (24 : Nat) = 1 then 0 else j.val; rw [if_neg (by decide)]
  · refine broadcastInDim_apply _ bcast_S24_S1x1x24_2 v (ix3 (0 : Fin 1) (0 : Fin 1) j) (ix1 j) (fun a => ?_)
    match a with
    | ⟨0, _⟩ => show j.val = if (24 : Nat) = 1 then 0 else j.val; rw [if_neg (by decide)]

/-- The cut-off constant, a scalar broadcast everywhere, is its word. -/
theorem zero_apply (i : S4x20000x288.Idx) :
    broadcastInDim S4x20000x288 ![] bcast_S_S4x20000x288 (constant (F := Ideal) S_ .f32 0x00000000#32) i = Ideal.ofBits .f32 0x00000000#32 :=
  broadcastInDim_apply _ bcast_S_S4x20000x288 _ i ix0 (fun a => a.elim0)

/-! ## The two layers -/

/-- The reference's two layers and the final reshape, of a [4, 20000, 288] array `X`. -/
def layers (X : FVec Ideal S4x20000x288 .f32) (w1 : FVec Ideal S288x288 .f32) (b1 : FVec Ideal S288 .f32)
    (w2 : FVec Ideal S288x24 .f32) (b2 : FVec Ideal S24 .f32) : FVec Ideal S4x20000x12x2 .f32 :=
  shapeCast _ (addf (Host.dotGeneral dot_S4x20000x288_S288x24_S4x20000x24_2_0_01_1_n_n none (maximumf (addf (Host.dotGeneral dot_S4x20000x288_S288x288_S4x20000x288_2_0_01_1_n_n none X w1) (broadcastInDim S4x20000x288 ![0, 1, 2] bcast_S1x1x288_S4x20000x288_0_1_2 (broadcastInDim S1x1x288 ![2] bcast_S288_S1x1x288_2 b1))) (broadcastInDim S4x20000x288 ![] bcast_S_S4x20000x288 (constant (F := Ideal) S_ .f32 0x00000000#32))) w2) (broadcastInDim S4x20000x24 ![0, 1, 2] bcast_S1x1x24_S4x20000x24_0_1_2 (broadcastInDim S1x1x24 ![2] bcast_S24_S1x1x24_2 b2))) shapeCasts_S4x20000x24_S4x20000x12x2

/-- Entry `(b, n, h, e)` of the reference's layers: the network's output for node `(b, n)`'s row, column `j = 2h + e`. -/
theorem layers_apply (X : FVec Ideal S4x20000x288 .f32) (w1 : FVec Ideal S288x288 .f32) (b1 : FVec Ideal S288 .f32)
    (w2 : FVec Ideal S288x24 .f32) (b2 : FVec Ideal S24 .f32) (b : Fin 4) (n : Fin 20000) (h : Fin 12) (e : Fin 2) (j : Fin 24)
    (hj : j.val = 2 * h.val + e.val) :
    layers X w1 b1 w2 b2 (ix4 b n h e)
      = Mlp.outOf (fun i => X (ix3 b n i)) w1 (fun k => b1 (ix1 k)) (fun k => w2 (ix2 k j)) (b2 (ix1 j)) := by
  unfold layers
  refine (shapeCast_apply _ shapeCasts_S4x20000x24_S4x20000x12x2 (ix4 b n h e) (ix3 b n j) ?_).trans ?_
  · rw [Shape.rowMajor_val_three, Shape.rowMajor_val_four]
    show (b.val * 20000 + n.val) * 24 + j.val = ((b.val * 20000 + n.val) * 12 + h.val) * 2 + e.val
    omega
  rw [addf_apply, dg2_apply, bias2_apply]
  unfold Mlp.outOf
  refine congrArg (· + b2 (ix1 j)) (Finset.sum_congr rfl fun k _ => ?_)
  rw [maximumf_apply, addf_apply, dg1_apply, bias1_apply, zero_apply]
  rfl

end Cert.ReferenceIdeal.Mid

end
-- ==== Proof.RefValue.lean ====
/-
  The reference's two results, in the shared vocabulary: the epilogue's `mu` and `sigma` of the reference's two layers of the
  shared prologue's array. The run states each result as one long term of the arguments; that term IS this composition.
-/
import proofs.«125783_j79937931313654_1_alg».proof.Proof.RefRun
import proofs.«125783_j79937931313654_1_alg».proof.Proof.Shared
import proofs.«125783_j79937931313654_1_alg».proof.Proof.RefMid

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The network's output pairs, from the arguments. -/
def pairsOf (c : Dev nD) : FVec Ideal S4x20000x12x2 .f32 :=
  Mid.layers (Shared.head (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg6)) (m ((c.tc : Thread nD τ).loc main_arg7))

theorem res_mu (c : Dev nD) : Cert.ReferenceIdeal.ValueP.res_main_v50 (F := Ideal) m c = Shared.tailMu (pairsOf m c) := by
  unfold Cert.ReferenceIdeal.ValueP.res_main_v50
  rfl

theorem res_sigma (c : Dev nD) : Cert.ReferenceIdeal.ValueP.res_main_v56 (F := Ideal) m c = Shared.tailSigma (pairsOf m c) := by
  unfold Cert.ReferenceIdeal.ValueP.res_main_v56
  rfl

end Cert.ReferenceIdeal.RefValue

end
-- ==== Proof.MlpBlock.lean ====
/-
  One block of the two-layer perceptron, entry by entry.

  The body takes a block of 4000 rows of the input matrix, the two weight matrices and the two bias rows, and stores
  `relu (x · W₁ + b₁) · W₂ + b₂` for those rows. Read at the extended reals every change of float format is the
  identity and each matrix product into a zero accumulator is the plain sum over the contracted axis, so the entry at row
  `r` and column `c` of what is stored is
  `∑ k, max (∑ i, x r i * W₁ i k + b₁ k) 0 * W₂ k c + b₂ c`.
-/
import proofs.«125783_j79937931313654_1_alg».proof.Proof.Gen.KernelIdeal.Skeleton
import proofs.«125783_j79937931313654_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The two matrix products at an entry -/

theorem lhs1_0 (i : S4000x288.Idx) (q : dot_S4000x288_S288x288_S4000x288_1_0_0_1_n_n.contr.Idx) :
    (dot_S4000x288_S288x288_S4000x288_1_0_0_1_n_n.lhsIdx i q 0).val = (i 0).val := by
  unfold DotDims.lhsIdx
  rw [dif_neg (show ¬(0 : Fin S4000x288.rank) ∈ dot_S4000x288_S288x288_S4000x288_1_0_0_1_n_n.lhsBatch by decide), dif_pos (show (0 : Fin S4000x288.rank) ∈ dot_S4000x288_S288x288_S4000x288_1_0_0_1_n_n.lhsNonContracting by decide)]
  rfl
theorem lhs1_1 (i : S4000x288.Idx) (q : dot_S4000x288_S288x288_S4000x288_1_0_0_1_n_n.contr.Idx) :
    (dot_S4000x288_S288x288_S4000x288_1_0_0_1_n_n.lhsIdx i q 1).val = (q ⟨0, by decide⟩).val :=
  dot_S4000x288_S288x288_S4000x288_1_0_0_1_n_n.lhsIdx_val_of_single rfl i q
theorem rhs1_0 (i : S4000x288.Idx) (q : dot_S4000x288_S288x288_S4000x288_1_0_0_1_n_n.contr.Idx) :
    (dot_S4000x288_S288x288_S4000x288_1_0_0_1_n_n.rhsIdx i q 0).val = (q ⟨0, by decide⟩).val :=
  dot_S4000x288_S288x288_S4000x288_1_0_0_1_n_n.rhsIdx_val_of_single rfl i q
theorem rhs1_1 (i : S4000x288.Idx) (q : dot_S4000x288_S288x288_S4000x288_1_0_0_1_n_n.contr.Idx) :
    (dot_S4000x288_S288x288_S4000x288_1_0_0_1_n_n.rhsIdx i q 1).val = (i 1).val := by
  unfold DotDims.rhsIdx
  rw [dif_neg (show ¬(1 : Fin S288x288.rank) ∈ dot_S4000x288_S288x288_S4000x288_1_0_0_1_n_n.rhsBatch by decide), dif_pos (show (1 : Fin S288x288.rank) ∈ dot_S4000x288_S288x288_S4000x288_1_0_0_1_n_n.rhsNonContracting by decide)]
  rfl

/-- The first product, rows of the block against the columns of `W₁`: the sum over the 288 input features. -/
theorem mm1_apply (l : FVec Ideal S4000x288 .bf16) (w : FVec Ideal S288x288 .bf16) (r : Fin 4000) (k : Fin 288) :
    matmul dot_S4000x288_S288x288_S4000x288_1_0_0_1_n_n none l w (constant (F := Ideal) S4000x288 .f32 0x00000000#32) (ix2 r k)
      = ∑ i : Fin 288, l (ix2 r i) * w (ix2 i k) := by
  simp only [matmul]
  rw [Ideal.matmul_constant_zero_apply, ← Equiv.sum_comp (contrEquiv1 dot_S4000x288_S288x288_S4000x288_1_0_0_1_n_n 288 rfl rfl).symm]
  refine Finset.sum_congr rfl fun i _ => ?_
  have hk := contrEquiv1_symm_val dot_S4000x288_S288x288_S4000x288_1_0_0_1_n_n 288 rfl rfl i
  have el : dot_S4000x288_S288x288_S4000x288_1_0_0_1_n_n.lhsIdx (ix2 r k) ((contrEquiv1 dot_S4000x288_S288x288_S4000x288_1_0_0_1_n_n 288 rfl rfl).symm i) = ix2 r i := funext fun a => Fin.ext (by
    match a with
    | ⟨0, _⟩ => exact lhs1_0 _ _
    | ⟨1, _⟩ => exact (lhs1_1 _ _).trans hk)
  have er : dot_S4000x288_S288x288_S4000x288_1_0_0_1_n_n.rhsIdx (ix2 r k) ((contrEquiv1 dot_S4000x288_S288x288_S4000x288_1_0_0_1_n_n 288 rfl rfl).symm i) = ix2 i k := funext fun a => Fin.ext (by
    match a with
    | ⟨0, _⟩ => exact (rhs1_0 _ _).trans hk
    | ⟨1, _⟩ => exact rhs1_1 _ _)
  rw [el, er]

theorem lhs2_0 (i : S4000x128.Idx) (q : dot_S4000x288_S288x128_S4000x128_1_0_0_1_n_n.contr.Idx) :
    (dot_S4000x288_S288x128_S4000x128_1_0_0_1_n_n.lhsIdx i q 0).val = (i 0).val := by
  unfold DotDims.lhsIdx
  rw [dif_neg (show ¬(0 : Fin S4000x288.rank) ∈ dot_S4000x288_S288x128_S4000x128_1_0_0_1_n_n.lhsBatch by decide), dif_pos (show (0 : Fin S4000x288.rank) ∈ dot_S4000x288_S288x128_S4000x128_1_0_0_1_n_n.lhsNonContracting by decide)]
  rfl
theorem lhs2_1 (i : S4000x128.Idx) (q : dot_S4000x288_S288x128_S4000x128_1_0_0_1_n_n.contr.Idx) :
    (dot_S4000x288_S288x128_S4000x128_1_0_0_1_n_n.lhsIdx i q 1).val = (q ⟨0, by decide⟩).val :=
  dot_S4000x288_S288x128_S4000x128_1_0_0_1_n_n.lhsIdx_val_of_single rfl i q
theorem rhs2_0 (i : S4000x128.Idx) (q : dot_S4000x288_S288x128_S4000x128_1_0_0_1_n_n.contr.Idx) :
    (dot_S4000x288_S288x128_S4000x128_1_0_0_1_n_n.rhsIdx i q 0).val = (q ⟨0, by decide⟩).val :=
  dot_S4000x288_S288x128_S4000x128_1_0_0_1_n_n.rhsIdx_val_of_single rfl i q
theorem rhs2_1 (i : S4000x128.Idx) (q : dot_S4000x288_S288x128_S4000x128_1_0_0_1_n_n.contr.Idx) :
    (dot_S4000x288_S288x128_S4000x128_1_0_0_1_n_n.rhsIdx i q 1).val = (i 1).val := by
  unfold DotDims.rhsIdx
  rw [dif_neg (show ¬(1 : Fin S288x128.rank) ∈ dot_S4000x288_S288x128_S4000x128_1_0_0_1_n_n.rhsBatch by decide), dif_pos (show (1 : Fin S288x128.rank) ∈ dot_S4000x288_S288x128_S4000x128_1_0_0_1_n_n.rhsNonContracting by decide)]
  rfl

/-- The second product, hidden rows against the columns of the padded `W₂`: the sum over the 288 hidden features. -/
theorem mm2_apply (l : FVec Ideal S4000x288 .bf16) (w : FVec Ideal S288x128 .bf16) (r : Fin 4000) (c : Fin 128) :
    matmul dot_S4000x288_S288x128_S4000x128_1_0_0_1_n_n none l w (constant (F := Ideal) S4000x128 .f32 0x00000000#32) (ix2 r c)
      = ∑ k : Fin 288, l (ix2 r k) * w (ix2 k c) := by
  simp only [matmul]
  rw [Ideal.matmul_constant_zero_apply, ← Equiv.sum_comp (contrEquiv1 dot_S4000x288_S288x128_S4000x128_1_0_0_1_n_n 288 rfl rfl).symm]
  refine Finset.sum_congr rfl fun k _ => ?_
  have hk := contrEquiv1_symm_val dot_S4000x288_S288x128_S4000x128_1_0_0_1_n_n 288 rfl rfl k
  have el : dot_S4000x288_S288x128_S4000x128_1_0_0_1_n_n.lhsIdx (ix2 r c) ((contrEquiv1 dot_S4000x288_S288x128_S4000x128_1_0_0_1_n_n 288 rfl rfl).symm k) = ix2 r k := funext fun a => Fin.ext (by
    match a with
    | ⟨0, _⟩ => exact lhs2_0 _ _
    | ⟨1, _⟩ => exact (lhs2_1 _ _).trans hk)
  have er : dot_S4000x288_S288x128_S4000x128_1_0_0_1_n_n.rhsIdx (ix2 r c) ((contrEquiv1 dot_S4000x288_S288x128_S4000x128_1_0_0_1_n_n 288 rfl rfl).symm k) = ix2 k c := funext fun a => Fin.ext (by
    match a with
    | ⟨0, _⟩ => exact (rhs2_0 _ _).trans hk
    | ⟨1, _⟩ => exact rhs2_1 _ _)
  rw [el, er]

/-! ## The stored value at an entry -/

/-- What the body stores, at row `r` and column `c` of the block: the network's output entry for the block's row `r`, the
    column `c` of the (padded) second weight matrix and the entry `c` of the (padded) second bias row. -/
theorem pay_apply (x0 : Vec Ideal S4000x288 .f32) (x1 : Vec Ideal S288x288 .f32) (x2 : Vec Ideal S1x288 .f32)
    (x3 : Vec Ideal S288x128 .f32) (x4 : Vec Ideal S1x128 .f32) (r : Fin 4000) (c : Fin 128) :
    k0_pay1 (F := Ideal) x0 x1 x2 x3 x4 (ix2 r c)
      = Mlp.outOf (fun i => x0 (ix2 r i)) x1 (fun k => x2 (ix2 (0 : Fin 1) k)) (fun k => x3 (ix2 k c)) (x4 (ix2 (0 : Fin 1) c)) := by
  unfold k0_pay1
  simp only [shapeCast_self]
  rw [addf_apply, mm2_apply, broadcastTo_1b_ab_apply]
  unfold Mlp.outOf
  refine congrArg (· + x4 (ix2 (0 : Fin 1) c)) (Finset.sum_congr rfl fun k _ => ?_)
  rw [truncf_apply, truncf_apply, maximumf_apply, addf_apply, mm1_apply, broadcastTo_1b_ab_apply, broadcast_apply]
  unfold Mlp.hiddenOf
  refine congrArg (fun s => max (s + x2 (ix2 (0 : Fin 1) k)) _ * x3 (ix2 k c)) (Finset.sum_congr rfl fun i _ => ?_)
  rw [truncf_apply, truncf_apply]

end Cert.KernelIdeal.Block

end
-- ==== Proof.KernelArray.lean ====
/-
  The kernel's output array after the run: one function of the arrays the region finds.

  The grid has 20 points; point `t` takes rows `4000 t … 4000 t + 3999` of the input matrix and the whole of the two weight
  matrices and the two bias rows, and writes back rows `4000 t … 4000 t + 3999` of the output. What it writes back is the
  network's output for those rows, so every point writes a block of ONE whole-array function, and the blocks cover the
  80000 rows: the output array ends as that function.
-/
import proofs.«125783_j79937931313654_1_alg».proof.Proof.Gen.KernelIdeal.Frame
import proofs.«125783_j79937931313654_1_alg».proof.Proof.MlpBlock
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The output array as a function of the input matrix, the weights and the bias rows: row `R`, column `c` is the network's
    output entry for row `R` of the input, column `c` of the second weight matrix and entry `c` of the second bias row. -/
def G (X : S80000x288.Idx → EReal) (W1 : S288x288.Idx → EReal) (B1 : S1x288.Idx → EReal) (W2 : S288x128.Idx → EReal)
    (B2 : S1x128.Idx → EReal) : S80000x128.Idx → EReal := fun I =>
  Mlp.outOf (fun i => X (ix2 (⟨(I 0).val, idx2_lt0 I⟩ : Fin 80000) i)) W1 (fun k => B1 (ix2 (0 : Fin 1) k))
    (fun k => W2 (ix2 k (⟨(I 1).val, idx2_lt1 I⟩ : Fin 128))) (B2 (ix2 (0 : Fin 1) (⟨(I 1).val, idx2_lt1 I⟩ : Fin 128)))

/-- A block's stored value is a block of `G`: when the block's rows are rows `4000 q …` of `X` (`h0`) and the other four
    loaded blocks are the whole arrays, the entry at `y` of the block is `G` at the array index `I` above it. -/
theorem block_entry (x0 : Vec Ideal S4000x288 .f32) (x1 : Vec Ideal S288x288 .f32) (x2 : Vec Ideal S1x288 .f32)
    (x3 : Vec Ideal S288x128 .f32) (x4 : Vec Ideal S1x128 .f32)
    (X : S80000x288.Idx → EReal) (W1 : S288x288.Idx → EReal) (B1 : S1x288.Idx → EReal) (W2 : S288x128.Idx → EReal)
    (B2 : S1x128.Idx → EReal) (q : Nat)
    (h0 : ∀ (y : S4000x288.Idx) (I : S80000x288.Idx), (I 0).val = q * 4000 + (y 0).val → (I 1).val = (y 1).val → x0 y = X I)
    (h1 : ∀ y, x1 y = W1 y) (h2 : ∀ y, x2 y = B1 y) (h3 : ∀ y, x3 y = W2 y) (h4 : ∀ y, x4 y = B2 y)
    (y : S4000x128.Idx) (I : S80000x128.Idx) (hI0 : (I 0).val = q * 4000 + (y 0).val) (hI1 : (I 1).val = (y 1).val) :
    k0_pay1 (F := Ideal) x0 x1 x2 x3 x4 y = G X W1 B1 W2 B2 I := by
  obtain ⟨r, c, rfl⟩ : ∃ (r : Fin 4000) (c : Fin 128), y = ix2 r c := ⟨y 0, y 1, eq_ix2 y⟩
  rw [Block.pay_apply]
  unfold G
  have hc : (⟨(I 1).val, idx2_lt1 I⟩ : Fin 128) = c := Fin.ext hI1
  rw [hc]
  have e0 : (fun i : Fin 288 => x0 (ix2 r i)) = fun i => X (ix2 (⟨(I 0).val, idx2_lt0 I⟩ : Fin 80000) i) :=
    funext fun i => h0 (ix2 r i) (ix2 (⟨(I 0).val, idx2_lt0 I⟩ : Fin 80000) i) hI0 rfl
  have e1 : (x1 : S288x288.Idx → EReal) = W1 := funext h1
  have e2 : (fun k : Fin 288 => x2 (ix2 (0 : Fin 1) k)) = fun k => B1 (ix2 (0 : Fin 1) k) := funext fun k => h2 _
  have e3 : (fun k : Fin 288 => x3 (ix2 k c)) = fun k => W2 (ix2 k c) := funext fun k => h3 _
  rw [e0, e1, e2, e3, h4]

variable (m : (ℓ : Loc nD τ sig) → Buf (Elt Ideal) ℓ)

theorem hz : (![0, 0] : Fin 2 → Nat) = fun _ => 0 := funext fun a => by fin_cases a <;> rfl

/-- The printed index maps, decided over the grid: the input matrix's block moves with the output's along the rows; every other
    block index is zero. -/
theorem idx_facts : ∀ t : Fin cfg0.N, win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The input matrix's block at point `t` is rows `4000 q …` of the matrix, `q` the output's block index. -/
theorem blk0 (c : Dev nD) (t : Fin cfg0.N) (y : S4000x288.Idx) (I : S80000x288.Idx)
    (hy0 : (I 0).val = win0_5.index t (0 : Fin 2) * 4000 + (y 0).val) (hy1 : (I 1).val = (y 1).val) :
    iblk m c 0 t y = V m c main_v38 I := by
  obtain ⟨e0, e1, e2, e3, e4, e5, e6, e7, e8, e9, e10⟩ := idx_facts t
  have e : ((cfg0.win 0).blk t).view.emb y = I := by
    funext a; apply Fin.ext
    match a with
    | ⟨0, _⟩ => show win0_0.index t (0 : Fin 2) * 4000 + 1 * (y 0).val = (I 0).val; omega
    | ⟨1, _⟩ => show win0_0.index t (1 : Fin 2) * 288 + 1 * (y 1).val = (I 1).val; omega
  show V m c main_v38 (((cfg0.win 0).blk t).view.emb y) = V m c main_v38 I
  rw [e]
/-- Window 1's block is its whole array: the block read at `y` is the array at `y`. -/
theorem blk1 (c : Dev nD) (t : Fin cfg0.N) (y : S288x288.Idx) : iblk m c 1 t y = V m c main_arg4 y := by
  obtain ⟨e0, e1, e2, e3, e4, e5, e6, e7, e8, e9, e10⟩ := idx_facts t
  have e : ((cfg0.win 1).blk t).view.emb y = y := by
    funext a; apply Fin.ext
    match a with
    | ⟨0, _⟩ => show win0_1.index t (0 : Fin 2) * 288 + 1 * (y 0).val = (y 0).val; omega
    | ⟨1, _⟩ => show win0_1.index t (1 : Fin 2) * 288 + 1 * (y 1).val = (y 1).val; omega
  show V m c main_arg4 (((cfg0.win 1).blk t).view.emb y) = V m c main_arg4 y
  rw [e]
/-- Window 2's block is its whole array: the block read at `y` is the array at `y`. -/
theorem blk2 (c : Dev nD) (t : Fin cfg0.N) (y : S1x288.Idx) : iblk m c 2 t y = V m c main_v45 y := by
  obtain ⟨e0, e1, e2, e3, e4, e5, e6, e7, e8, e9, e10⟩ := idx_facts t
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 288 + 1 * (y 1).val = (y 1).val; omega
  show V m c main_v45 (((cfg0.win 2).blk t).view.emb y) = V m c main_v45 y
  rw [e]
/-- Window 3's block is its whole array: the block read at `y` is the array at `y`. -/
theorem blk3 (c : Dev nD) (t : Fin cfg0.N) (y : S288x128.Idx) : iblk m c 3 t y = V m c main_v41 y := by
  obtain ⟨e0, e1, e2, e3, e4, e5, e6, e7, e8, e9, e10⟩ := idx_facts t
  have e : ((cfg0.win 3).blk t).view.emb y = y := by
    funext a; apply Fin.ext
    match a with
    | ⟨0, _⟩ => show win0_3.index t (0 : Fin 2) * 288 + 1 * (y 0).val = (y 0).val; omega
    | ⟨1, _⟩ => show win0_3.index t (1 : Fin 2) * 128 + 1 * (y 1).val = (y 1).val; omega
  show V m c main_v41 (((cfg0.win 3).blk t).view.emb y) = V m c main_v41 y
  rw [e]
/-- Window 4's block is its whole array: the block read at `y` is the array at `y`. -/
theorem blk4 (c : Dev nD) (t : Fin cfg0.N) (y : S1x128.Idx) : iblk m c 4 t y = V m c main_v46 y := by
  obtain ⟨e0, e1, e2, e3, e4, e5, e6, e7, e8, e9, e10⟩ := idx_facts t
  have e : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  show V m c main_v46 (((cfg0.win 4).blk t).view.emb y) = V m c main_v46 y
  rw [e]

set_option maxHeartbeats 1000000 in
/-- What point `t` writes back is block `t` of `G` of the arrays as the region finds them. -/
theorem flushed_eq (c : Dev nD) (t : Fin cfg0.N) :
    (dats m 0 c).flushed 5 t = ((cfg0.win 5).blk t).view.read (Elt Ideal)
      (G (V m c main_v38) (V m c main_arg4) (V m c main_v45) (V m c main_v41) (V m c main_v46)) := by
  show (cfg0.win 5).cut (grid0.coords t) ((dats m 0 c).after 5 t) = _
  rw [after0_5]
  unfold out0_5
  rw [View.canon_unit_zero hz]
  simp only [View.ld_unit_zero (S := S4000x288) hz, View.ld_unit_zero (S := S288x288) hz, View.ld_unit_zero (S := S1x288) hz,
    View.ld_unit_zero (S := S288x128) hz, View.ld_unit_zero (S := S1x128) hz]
  obtain ⟨e0, e1, e2, e3, e4, e5, e6, e7, e8, e9, e10⟩ := idx_facts t
  funext j
  show k0_pay1 (F := Ideal) (iblk m c 0 t) (iblk m c 1 t) (iblk m c 2 t) (iblk m c 3 t) (iblk m c 4 t) j
    = G (V m c main_v38) (V m c main_arg4) (V m c main_v45) (V m c main_v41) (V m c main_v46) (((cfg0.win 5).blk t).view.emb j)
  refine block_entry (iblk m c 0 t) (iblk m c 1 t) (iblk m c 2 t) (iblk m c 3 t) (iblk m c 4 t)
    (V m c main_v38) (V m c main_arg4) (V m c main_v45) (V m c main_v41) (V m c main_v46) (win0_5.index t (0 : Fin 2))
    (blk0 m c t) (blk1 m c t) (blk2 m c t) (blk3 m c t) (blk4 m c t) j (((cfg0.win 5).blk t).view.emb j) ?_ ?_
  · show win0_5.index t (0 : Fin 2) * 4000 + 1 * (j 0).val = win0_5.index t (0 : Fin 2) * 4000 + (j 0).val
    omega
  · show win0_5.index t (1 : Fin 2) * 128 + 1 * (j 1).val = (j 1).val
    omega

/-- An index of the output array is in point `t`'s block iff each coordinate is in the block's range on its axis. -/
theorem mem_blk (t : Fin cfg0.N) (i : S80000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v47).slice (win0_5.rect t)).set ↔ _
  rw [View.set_slice_whole, Rect.mem_set_unit]
  exact Iff.rfl

/-- The blocks cover the array: row `R` is in the block of point `R / 4000`. -/
theorem cover (i : S80000x128.Idx) : ∃ t : Fin cfg0.N, (cfg0.win 5).flush t = true ∧ i ∈ ((cfg0.win 5).blk t).view.set := by
  have hi0 : (i 0).val < 80000 := (i 0).isLt
  have hi1 : (i 1).val < 128 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The output array after the run. -/
theorem final (c : Dev nD) : (dats m 0 c).arrAt 5 cfg0.N
    = G (V m c main_v38) (V m c main_arg4) (V m c main_v45) (V m c main_v41) (V m c main_v46) :=
  (dats m 0 c).arrAt_eq_of_cover 5 (G (V m c main_v38) (V m c main_arg4) (V m c main_v45) (V m c main_v41) (V m c main_v46))
    (fun t _ => flushed_eq m c t) cover

end Cert.KernelIdeal.Arr

end
-- ==== Proof.KernelTail.lean ====
/-
  What the lines after the kernel's region return: the first 24 columns of the 80000 × 128 output, rows split back into batches
  and nodes and columns into 12 pairs, through the shared epilogue. The lines are read from ANY contents of the buffers: only
  the output array's buffer is read, and what it holds after the region is put in afterwards.
-/
import proofs.«125783_j79937931313654_1_alg».proof.Proof.Gen.KernelIdeal.Frame
import proofs.«125783_j79937931313654_1_alg».proof.Proof.Shared
import Idealize.ShloMosaic.Lib.StableHlo.Run
import Idealize.ShloMosaic.PureOps.Ideal

set_option maxRecDepth 16384
set_option Elab.async false

noncomputable section

namespace Cert.KernelIdeal.HostSide

open Cert.KernelIdeal Cert.KernelIdeal.Gen Idealize.ShloMosaic Idealize.ShloMosaic.TcCoe Idealize.ShloMosaic.StableHlo
open Idealize.SL.Sem

/-- The network's 24 outputs per node as 12 pairs, from the 80000 × 128 output array. -/
def pairs (A : S80000x128.Idx → EReal) : FVec Ideal S4x20000x12x2 .f32 :=
  shapeCast S4x20000x12x2 (extractStridedSlice S80000x24 ![0, 0] A slices_S80000x128_S80000x24_0_0) shapeCasts_S80000x24_S4x20000x12x2

/-- The lines after the region, from any contents: the first result is the shared `mu` of the output buffer's pairs. -/
theorem step_mu (Wv : Valuation τ sig (Elt Ideal)) :
    (after (List.flatten [hostOps1, hostOps1_1, hostOps1_2]) Wv (Proc.devRef .tc main_v52) : S4x12x20000.Idx → EReal)
      = Cert.ReferenceIdeal.Shared.tailMu (pairs (Wv (Proc.devRef .tc main_v47) : S80000x128.Idx → EReal)) := by
  simp only [hostOps1, hostOps1_1, hostOps1_2, List.flatten_cons, List.flatten_nil, List.append_nil, List.cons_append, List.nil_append]
  after_results_simp <;> rfl

/-- and the second result the shared `sigma` of them. -/
theorem step_sigma (Wv : Valuation τ sig (Elt Ideal)) :
    (after (List.flatten [hostOps1, hostOps1_1, hostOps1_2]) Wv (Proc.devRef .tc main_v58) : S4x12x20000.Idx → EReal)
      = Cert.ReferenceIdeal.Shared.tailSigma (pairs (Wv (Proc.devRef .tc main_v47) : S80000x128.Idx → EReal)) := by
  simp only [hostOps1, hostOps1_1, hostOps1_2, List.flatten_cons, List.flatten_nil, List.append_nil, List.cons_append, List.nil_append]
  after_results_simp <;> rfl

variable (m : (ℓ : Loc nD τ sig) → Buf (Elt Ideal) ℓ)

/-- The first result: the shared `mu` of the output array's pairs. -/
theorem tail_mu (c : Dev nD) :
    Pipeline.afterTail₀ cfgs (dats m) 0 (V0 m) [hostOps1, hostOps1_1, hostOps1_2] c main_v52
      = Cert.ReferenceIdeal.Shared.tailMu (pairs ((dats m 0 c).arrAt 5 cfg0.N)) := by
  unfold Pipeline.afterTail₀
  refine (step_mu _).trans ?_
  exact congrArg (fun A : S80000x128.Idx → EReal => Cert.ReferenceIdeal.Shared.tailMu (pairs A))
    (Pipeline.withArrays_arr spec0 launch0.win.arr_inj c _ _ 5)

/-- The second result: the shared `sigma` of the output array's pairs. -/
theorem tail_sigma (c : Dev nD) :
    Pipeline.afterTail₀ cfgs (dats m) 0 (V0 m) [hostOps1, hostOps1_1, hostOps1_2] c main_v58
      = Cert.ReferenceIdeal.Shared.tailSigma (pairs ((dats m 0 c).arrAt 5 cfg0.N)) := by
  unfold Pipeline.afterTail₀
  refine (step_sigma _).trans ?_
  exact congrArg (fun A : S80000x128.Idx → EReal => Cert.ReferenceIdeal.Shared.tailSigma (pairs A))
    (Pipeline.withArrays_arr spec0 launch0.win.arr_inj c _ _ 5)

end Cert.KernelIdeal.HostSide

end
-- ==== Proof.KernelRun.lean ====
/-
  The kernel's run, read: the two results are the shared epilogue of the pairs cut from the output array, which is the
  network's function of the arrays the region finds; the arguments end as they began.
-/
import proofs.«125783_j79937931313654_1_alg».proof.Proof.KernelArray
import proofs.«125783_j79937931313654_1_alg».proof.Proof.KernelTail

set_option maxRecDepth 16384

noncomputable section

namespace Cert.KernelIdeal.RunValue

open Cert.KernelIdeal Cert.KernelIdeal.Gen Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

theorem mu_eq (c : Dev nD) :
    Pipeline.afterTail₀ cfgs (dats m) 0 (V0 m) [hostOps1, hostOps1_1, hostOps1_2] c main_v52
      = Cert.ReferenceIdeal.Shared.tailMu (HostSide.pairs (Arr.G (V m c main_v38) (V m c main_arg4) (V m c main_v45) (V m c main_v41) (V m c main_v46))) := by
  rw [HostSide.tail_mu, Arr.final]

theorem sigma_eq (c : Dev nD) :
    Pipeline.afterTail₀ cfgs (dats m) 0 (V0 m) [hostOps1, hostOps1_1, hostOps1_2] c main_v58
      = Cert.ReferenceIdeal.Shared.tailSigma (HostSide.pairs (Arr.G (V m c main_v38) (V m c main_arg4) (V m c main_v45) (V m c main_v41) (V m c main_v46))) := by
  rw [HostSide.tail_sigma, Arr.final]

/-- The frame run re-posted with both results named. -/
theorem run : θ_run defs (onTc (τ := τ) (main (F := Ideal))) ⟨m, fun _ => 0, ρ⟩ (fun r => ∀ c : Dev nD,
      r.2.mem ((c.tc : Thread nD τ).loc main_v52) = Cert.ReferenceIdeal.Shared.tailMu (HostSide.pairs (Arr.G (V m c main_v38) (V m c main_arg4) (V m c main_v45) (V m c main_v41) (V m c main_v46)))
      ∧ r.2.mem ((c.tc : Thread nD τ).loc main_v58) = Cert.ReferenceIdeal.Shared.tailSigma (HostSide.pairs (Arr.G (V m c main_v38) (V m c main_arg4) (V m c main_v45) (V m c main_v41) (V m c main_v46)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v52 (Pipeline.mem_restRefs_of main_v52 (by decide) (by decide))).trans (mu_eq m c),
      ((h c).2 main_v58 (Pipeline.mem_restRefs_of main_v58 (by decide) (by decide))).trans (sigma_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.RunValue

end
-- ==== Proof.KernelHostX.lean ====
/-
  What the kernel's region finds as its input matrix: the shared prologue's array, batches and nodes flattened into 80000 rows.

  The host operations before the region are read in three steps. The first stretch ends with the count mask (which nodes some
  membership names) and the quotient of the summed patch features by the counts. The second stretch (the outlined `where`)
  selects the quotient under the mask and zero elsewhere: the mean patch feature of each node. The third stretch moves the time
  axis of the node features and of the means next to the feature axis, merges it in, joins the two along the feature axis
  and flattens batches and nodes.
-/
import proofs.«125783_j79937931313654_1_alg».proof.Proof.Gen.KernelIdeal.Frame
import proofs.«125783_j79937931313654_1_alg».proof.Proof.Shared
import Idealize.ShloMosaic.Lib.StableHlo.Run
import Idealize.ShloMosaic.PureOps.Ideal

set_option maxRecDepth 16384
set_option Elab.async false

noncomputable section

namespace Cert.KernelIdeal.HostSide

open Cert.KernelIdeal Cert.KernelIdeal.Gen Idealize.ShloMosaic Idealize.ShloMosaic.TcCoe Idealize.ShloMosaic.StableHlo
open Idealize.SL.Sem

/-- Running two lines one after the other is running the first and then the second from what it left. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ)

/-- The buffers' contents after the first stretch of host operations. -/
def W0 (c : Dev nD) : Valuation τ sig (Elt Ideal) := after hostOps0 (fun b => m (c, b))

theorem V_split (c : Dev nD) (b : Ref sig .tc) :
    V m c b = after hostOps0_2 (after hostOps0_1 (W0 m c)) (Proc.devRef .tc b) := by
  dsimp only [V, V0, W0]
  rw [show List.flatten [hostOps0 (F := Ideal), hostOps0_1, hostOps0_2] = hostOps0 ++ (hostOps0_1 ++ hostOps0_2) from by
    simp only [List.flatten_cons, List.flatten_nil, List.append_nil], after_append, after_append]

/-! ## The first stretch -/

/-- Which nodes some membership names. -/
theorem W0_mask (c : Dev nD) : (W0 m c (Proc.devRef .tc main_v26) : (⟨S1x1x20000x1, .i1⟩ : BufTy).Contents (Elt Ideal))
    = cmpf .ogt (broadcastInDim S1x1x20000x1 ![2] bcast_S20000_S1x1x20000x1_2 (Cert.ReferenceIdeal.Shared.counts (m ((c.tc : Thread nD τ).loc main_arg3)))) (broadcastInDim S1x1x20000x1 ![] bcast_S_S1x1x20000x1 (constant (F := Ideal) S_ .f32 0x00000000#32)) := by
  dsimp only [W0]
  simp only [hostOps0]
  after_results_simp <;> rfl

/-- The summed patch features of each node over its count (over 1 where the count is below 1). -/
theorem W0_quot (c : Dev nD) : (W0 m c (Proc.devRef .tc main_v31) : S4x12x20000x16.Idx → EReal)
    = Host.divf (Host.scatterAdd scatter_S4x12x20000x16_S160000x1_S4x12x160000x16_013_2_2_1 (broadcastInDim S4x12x20000x16 ![] bcast_S_S4x12x20000x16 (constant (F := Ideal) S_ .f32 0x00000000#32)) (Cert.ReferenceIdeal.Shared.wrap (m ((c.tc : Thread nD τ).loc main_arg3)) 20000#32) (Host.gather gather_S4x12x2000x16_S160000x1_S4x12x160000x16_013_2_n_n_2_1_412116 (m ((c.tc : Thread nD τ).loc main_arg0)) (Cert.ReferenceIdeal.Shared.wrap (m ((c.tc : Thread nD τ).loc main_arg2)) 2000#32)))
      (broadcastInDim S4x12x20000x16 ![0, 1, 2, 3] bcast_S1x1x20000x1_S4x12x20000x16_0_1_2_3 (broadcastInDim S1x1x20000x1 ![2] bcast_S20000_S1x1x20000x1_2 (maximumf (Cert.ReferenceIdeal.Shared.counts (m ((c.tc : Thread nD τ).loc main_arg3))) (broadcastInDim S20000 ![] bcast_S_S20000 (constant (F := Ideal) S_ .f32 0x3F800000#32))))) := by
  dsimp only [W0]
  simp only [hostOps0]
  after_results_simp <;> rfl

/-- The zero the `where` falls back to. -/
theorem W0_zero (c : Dev nD) : (W0 m c (Proc.devRef .tc main_cst_9) : S_.Idx → EReal) = constant (F := Ideal) S_ .f32 0x00000000#32 := by
  dsimp only [W0]
  simp only [hostOps0]
  after_results_simp <;> rfl

/-- The node features are as launched. -/
theorem W0_nodes (c : Dev nD) : (W0 m c (Proc.devRef .tc main_arg1) : S4x12x20000x8.Idx → EReal) = (m ((c.tc : Thread nD τ).loc main_arg1)) := by
  dsimp only [W0]
  simp only [hostOps0]
  after_results_simp <;> rfl

/-! ## The second stretch, from any contents -/

/-- The outlined `where`: the second operand under the mask, the scalar elsewhere. -/
theorem step_where (Wv : Valuation τ sig (Elt Ideal)) :
    (after hostOps0_1 Wv (Proc.devRef .tc main_v32) : S4x12x20000x16.Idx → EReal)
      = select (broadcastInDim S4x12x20000x16 ![0, 1, 2, 3] bcast_S1x1x20000x1_S4x12x20000x16_0_1_2_3 (Wv (Proc.devRef .tc main_v26) : (⟨S1x1x20000x1, .i1⟩ : BufTy).Contents (Elt Ideal)))
          (Wv (Proc.devRef .tc main_v31) : S4x12x20000x16.Idx → EReal)
          (broadcastInDim S4x12x20000x16 ![] bcast_S_S4x12x20000x16 (id (Wv (Proc.devRef .tc main_cst_9) : S_.Idx → EReal))) := by
  simp only [hostOps0_1]
  after_results_simp <;> rfl

/-- It leaves the node features alone. -/
theorem step_where_nodes (Wv : Valuation τ sig (Elt Ideal)) :
    (after hostOps0_1 Wv (Proc.devRef .tc main_arg1) : S4x12x20000x8.Idx → EReal) = Wv (Proc.devRef .tc main_arg1) := by
  simp only [hostOps0_1]
  after_results_simp <;> rfl

/-! ## The third stretch, from any contents -/

/-- The input matrix is the two arrays re-laid, joined and flattened. -/
theorem step_x (Wv : Valuation τ sig (Elt Ideal)) :
    (after hostOps0_2 Wv (Proc.devRef .tc main_v38) : S80000x288.Idx → EReal)
      = shapeCast S80000x288 (concatenate S4x20000x288 2 [⟨S4x20000x96, (shapeCast _ (transpose S4x20000x12x8 [0, 2, 1, 3] (Wv (Proc.devRef .tc main_arg1) : S4x12x20000x8.Idx → EReal) transposes_S4x12x20000x8_S4x20000x12x8_0_2_1_3) shapeCasts_S4x20000x12x8_S4x20000x96)⟩, ⟨S4x20000x192, (shapeCast _ (transpose S4x20000x12x16 [0, 2, 1, 3] (Wv (Proc.devRef .tc main_v32) : S4x12x20000x16.Idx → EReal) transposes_S4x12x20000x16_S4x20000x12x16_0_2_1_3) shapeCasts_S4x20000x12x16_S4x20000x192)⟩] concatenates_S4x20000x96_S4x20000x192_S4x20000x288_d2) shapeCasts_S4x20000x288_S80000x288 := by
  simp only [hostOps0_2]
  after_results_simp <;> rfl

/-! ## Together -/

/-- The input matrix the region finds: the shared prologue's array, batches and nodes flattened into rows. -/
theorem V_x (c : Dev nD) : (V m c main_v38 : S80000x288.Idx → EReal)
    = shapeCast S80000x288 (Cert.ReferenceIdeal.Shared.head (m ((c.tc : Thread nD τ).loc main_arg0)) (m ((c.tc : Thread nD τ).loc main_arg1)) (m ((c.tc : Thread nD τ).loc main_arg2)) (m ((c.tc : Thread nD τ).loc main_arg3))) shapeCasts_S4x20000x288_S80000x288 := by
  rw [V_split, step_x, step_where, step_where_nodes, W0_mask, W0_quot, W0_zero, W0_nodes]
  rfl

end Cert.KernelIdeal.HostSide

end
-- ==== Proof.KernelHostW.lean ====
/-
  What the kernel's region finds as weights and biases: each bias made a row, and the second weight matrix and bias written
  into the first 24 columns of zeros of width 128.
-/
import proofs.«125783_j79937931313654_1_alg».proof.Proof.Gen.KernelIdeal.Frame
import Idealize.ShloMosaic.Lib.StableHlo.Run
import Idealize.ShloMosaic.PureOps.Ideal

set_option maxRecDepth 16384
set_option Elab.async false

noncomputable section

namespace Cert.KernelIdeal.HostSide

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ)

/-- The first bias as a row. -/
theorem V_b1 (c : Dev nD) : (V m c main_v45 : S1x288.Idx → EReal) = shapeCast S1x288 (m ((c.tc : Thread nD τ).loc main_arg5)) shapeCasts_S288_S1x288 := by
  dsimp only [V, V0]
  simp only [hostOps0, hostOps0_1, hostOps0_2, List.flatten_cons, List.flatten_nil, List.append_nil, List.cons_append, List.nil_append]
  after_results_simp <;> rfl

/-- The second weight matrix, written into the first 24 columns of a 288 × 128 matrix of zeros. -/
theorem V_w2 (c : Dev nD) : (V m c main_v41 : S288x128.Idx → EReal)
    = Host.scatter scatter_S288x128_S1_S288x24_01_n_1_0 (fun _ b => b) (broadcastInDim S288x128 ![] bcast_S_S288x128 (constant (F := Ideal) S_ .f32 0x00000000#32)) (broadcastInDim S1 ![] bcast_S_S1 (constantI S_ 32 0#32)) (m ((c.tc : Thread nD τ).loc main_arg6)) := by
  dsimp only [V, V0]
  simp only [hostOps0, hostOps0_1, hostOps0_2, List.flatten_cons, List.flatten_nil, List.append_nil, List.cons_append, List.nil_append]
  after_results_simp <;> rfl

/-- The second bias, written into the first 24 entries of 128 zeros, as a row. -/
theorem V_b2 (c : Dev nD) : (V m c main_v46 : S1x128.Idx → EReal)
    = shapeCast S1x128 (Host.scatter scatter_S128_S1_S24_0_n_0_0 (fun _ b => b) (broadcastInDim S128 ![] bcast_S_S128 (constant (F := Ideal) S_ .f32 0x00000000#32)) (broadcastInDim S1 ![] bcast_S_S1 (constantI S_ 32 0#32)) (m ((c.tc : Thread nD τ).loc main_arg7))) shapeCasts_S128_S1x128 := by
  dsimp only [V, V0]
  simp only [hostOps0, hostOps0_1, hostOps0_2, List.flatten_cons, List.flatten_nil, List.append_nil, List.cons_append, List.nil_append]
  after_results_simp <;> rfl

end Cert.KernelIdeal.HostSide

end
-- ==== Proof.LibScatter.lean ====
/-
  A scatter that REPLACES (the body of `x.at[i].set(u)`: the update's element, whatever was there), read at an index.

  The scatter is a left fold over the update's elements: element `n` has a target index in the operand, or none when it
  falls outside, and a step overwrites the running array at the target with the update's element. So an operand index that is
  the target of exactly one update element ends holding that element, and an index that is no element's target ends holding
  what the operand held.
-/
import Idealize.ShloMosaic.PureOps.ShapeOps
import Idealize.ShloMosaic.PureOps.Dims

noncomputable section

namespace Cert.Lib.Scatter

open Idealize.ShloMosaic

variable {α ι κ : Type}

/-- Overwriting along a list. A step `S r n` of element `n`, whose target is `g n`, puts `v n` at the target and leaves every
    other index of `r` alone (`hsome`), and leaves `r` alone when `n` has no target (`hnone`). Folded over a list in which
    `n₀` occurs and is the only element with target `i`, the steps leave `v n₀` at `i`. -/
theorem foldl_overwrite_hit (g : κ → Option ι) (v : κ → α) (S : (ι → α) → κ → (ι → α))
    (hsome : ∀ r n j, g n = some j → S r n j = v n ∧ ∀ i', i' ≠ j → S r n i' = r i')
    (hnone : ∀ r n, g n = none → S r n = r)
    (i : ι) (n₀ : κ) (hg : g n₀ = some i) :
    ∀ (l : List κ) (x : ι → α), (∀ n ∈ l, g n = some i → n = n₀) → n₀ ∈ l → l.foldl S x i = v n₀ := by
  classical
  -- by induction on the list: once `n₀` has been met the index holds `v n₀`, before that what it held
  have key : ∀ (l : List κ) (x : ι → α), (∀ n ∈ l, g n = some i → n = n₀) →
      l.foldl S x i = if n₀ ∈ l then v n₀ else x i := by
    intro l
    induction l with
    | nil => intro x _; simp
    | cons n l ih =>
      intro x hu
      rw [List.foldl_cons, ih _ (fun n' hn' => hu n' (List.mem_cons_of_mem _ hn'))]
      by_cases hmem : n₀ ∈ l
      · rw [if_pos hmem, if_pos (List.mem_cons_of_mem _ hmem)]
      · rw [if_neg hmem]
        by_cases hn : n = n₀
        · subst hn
          rw [if_pos List.mem_cons_self]
          exact (hsome x n i hg).1
        · have hnot : n₀ ∉ n :: l := fun h => by
            rcases List.mem_cons.1 h with h | h
            · exact hn h.symm
            · exact hmem h
          rw [if_neg hnot]
          cases hgn : g n with
          | none => rw [hnone x n hgn]
          | some j =>
            refine (hsome x n j hgn).2 i fun hij => hn (hu n List.mem_cons_self ?_)
            rw [hgn, hij]
  intro l x hu hmem
  rw [key l x hu, if_pos hmem]

/-- The same steps leave an index that is no element's target as it was. -/
theorem foldl_overwrite_miss (g : κ → Option ι) (v : κ → α) (S : (ι → α) → κ → (ι → α))
    (hsome : ∀ r n j, g n = some j → S r n j = v n ∧ ∀ i', i' ≠ j → S r n i' = r i')
    (hnone : ∀ r n, g n = none → S r n = r) (i : ι) :
    ∀ (l : List κ) (x : ι → α), (∀ n ∈ l, g n ≠ some i) → l.foldl S x i = x i := by
  intro l
  induction l with
  | nil => intro x _; rfl
  | cons n l ih =>
    intro x hm
    rw [List.foldl_cons, ih _ (fun n' hn' => hm n' (List.mem_cons_of_mem _ hn'))]
    cases hgn : g n with
    | none => rw [hnone x n hgn]
    | some j =>
      refine (hsome x n j hgn).2 i fun hij => hm n List.mem_cons_self ?_
      rw [hgn, hij]

variable {s si u : Shape} {w : Nat}

/-- The step of a replacing scatter is such a step: element `n`'s target is the result index of update index number `n`. -/
theorem scatter_step_spec (d : ScatterDims s si u) (idx : IVec si w) (upd : u.Idx → α) :
    (∀ (r : s.Idx → α) (n : Fin u.numel) (j : s.Idx), d.resultIdx? (u.rowMajor.symm n) idx = some j →
        (match d.resultIdx? (u.rowMajor.symm n) idx with
          | some i => fun i' => if i' = i then (fun (_ b : α) => b) (r i) (upd (u.rowMajor.symm n)) else r i'
          | none => r) j = upd (u.rowMajor.symm n)
        ∧ ∀ i', i' ≠ j → (match d.resultIdx? (u.rowMajor.symm n) idx with
          | some i => fun i' => if i' = i then (fun (_ b : α) => b) (r i) (upd (u.rowMajor.symm n)) else r i'
          | none => r) i' = r i')
    ∧ (∀ (r : s.Idx → α) (n : Fin u.numel), d.resultIdx? (u.rowMajor.symm n) idx = none →
        (match d.resultIdx? (u.rowMajor.symm n) idx with
          | some i => fun i' => if i' = i then (fun (_ b : α) => b) (r i) (upd (u.rowMajor.symm n)) else r i'
          | none => r) = r) := by
  refine ⟨fun r n j h => ?_, fun r n h => ?_⟩
  · rw [h]
    exact ⟨if_pos rfl, fun i' hi' => if_neg hi'⟩
  · rw [h]

/-- A replacing scatter at an operand index that is the target of update index `j` and of no other: the update at `j`. -/
theorem scatter_replace_hit (d : ScatterDims s si u) (x : s.Idx → α) (idx : IVec si w) (upd : u.Idx → α) (i : s.Idx) (j : u.Idx)
    (hj : d.resultIdx? j idx = some i) (hu : ∀ j', d.resultIdx? j' idx = some i → j' = j) :
    Host.scatter d (fun _ b => b) x idx upd i = upd j := by
  have e : upd (u.rowMajor.symm (u.rowMajor j)) = upd j := by rw [Equiv.symm_apply_apply]
  rw [← e]
  exact foldl_overwrite_hit (fun n => d.resultIdx? (u.rowMajor.symm n) idx) (fun n => upd (u.rowMajor.symm n)) _
    (scatter_step_spec d idx upd).1 (scatter_step_spec d idx upd).2 i (u.rowMajor j)
    (by rw [Equiv.symm_apply_apply]; exact hj) (List.finRange u.numel) x
    (fun n _ hn => by rw [← hu _ hn, Equiv.apply_symm_apply]) (List.mem_finRange _)

/-- A replacing scatter at an operand index that is no update index's target: the operand there. -/
theorem scatter_replace_miss (d : ScatterDims s si u) (x : s.Idx → α) (idx : IVec si w) (upd : u.Idx → α) (i : s.Idx)
    (hm : ∀ j', d.resultIdx? j' idx ≠ some i) :
    Host.scatter d (fun _ b => b) x idx upd i = x i :=
  foldl_overwrite_miss (fun n => d.resultIdx? (u.rowMajor.symm n) idx) (fun n => upd (u.rowMajor.symm n)) _
    (scatter_step_spec d idx upd).1 (scatter_step_spec d idx upd).2 i (List.finRange u.numel) x (fun n _ => hm _)

end Cert.Lib.Scatter

end
-- ==== Proof.Pad.lean ====
/-
  The zero padding of the second layer, read at an index.

  The second weight matrix (288 × 24) is written into the first 24 columns of a 288 × 128 matrix of zeros, and the second bias
  (24 entries) into the first 24 entries of a row of 128 zeros, each by a scatter that replaces, with the one start index zero.
  An update entry lands at the operand index with the same coordinates, so at a column below 24 the padded matrix holds the
  original entry (and likewise the padded bias).
-/
import proofs.«125783_j79937931313654_1_alg».proof.Proof.Gen.KernelIdeal
import proofs.«125783_j79937931313654_1_alg».proof.Proof.LibScatter
import Idealize.ShloMosaic.Lib.ValueIdx

noncomputable section

namespace Cert.KernelIdeal.Pad

open Cert.KernelIdeal Cert.KernelIdeal.Gen Idealize.ShloMosaic Idealize.ShloMosaic.ValueIdx

variable {s si u : Shape} {w : Nat}

/-- An update index lands at the operand index `i` exactly when start plus window coordinate is `i`'s coordinate on every axis. -/
theorem resultIdx?_eq_some_iff (d : ScatterDims s si u) (idx : IVec si w) (j : u.Idx) (i : s.Idx) :
    d.resultIdx? j idx = some i ↔ ∀ a, d.start j idx a + (d.window j a : Int) = ((i a).val : Int) := by
  unfold ScatterDims.resultIdx?
  constructor
  · intro h
    split at h
    · rename_i hb
      have e := Option.some.inj h
      intro a
      have ea : ((d.start j idx a + (d.window j a : Int)).toNat : Nat) = (i a).val := congrArg (fun f : s.Idx => (f a).val) e
      have := (hb a).1
      omega
    · exact absurd h (by simp)
  · intro h
    have hb : ∀ a, 0 ≤ d.start j idx a + (d.window j a : Int) ∧ d.start j idx a + (d.window j a : Int) < s.size a := fun a => by
      rw [h a]; exact ⟨Int.natCast_nonneg _, by exact_mod_cast (i a).isLt⟩
    rw [dif_pos hb]
    refine congrArg some (funext fun a => Fin.ext ?_)
    show (d.start j idx a + (d.window j a : Int)).toNat = (i a).val
    rw [h a]; exact Int.toNat_natCast _

/-! ## The padded second weight matrix -/

theorem w2_start (idx : IVec S1 32) (h0 : ∀ q, idx q = 0#32) (j : S288x24.Idx) (a : Fin 2) :
    scatter_S288x128_S1_S288x24_01_n_1_0.start j idx a = 0 := by
  unfold ScatterDims.start
  split
  · rw [h0]; rfl
  · rfl

theorem w2_window0 (j : S288x24.Idx) : scatter_S288x128_S1_S288x24_01_n_1_0.window j (0 : Fin 2) = (j 0).val := by
  unfold ScatterDims.window
  rw [dif_pos (by decide)]
  rfl

theorem w2_window1 (j : S288x24.Idx) : scatter_S288x128_S1_S288x24_01_n_1_0.window j (1 : Fin 2) = (j 1).val := by
  unfold ScatterDims.window
  rw [dif_pos (by decide)]
  rfl

/-- At row `k` and a column `c` below 24 the padded matrix holds the original entry at `(k, c)`. -/
theorem padW2_apply {α : Type} (x : S288x128.Idx → α) (idx : IVec S1 32) (h0 : ∀ q, idx q = 0#32) (upd : S288x24.Idx → α)
    (k : Fin 288) (c : Fin 128) (j : Fin 24) (hc : c.val = j.val) :
    Host.scatter scatter_S288x128_S1_S288x24_01_n_1_0 (fun _ b => b) x idx upd (ix2 k c) = upd (ix2 k j) := by
  refine Cert.Lib.Scatter.scatter_replace_hit _ x idx upd (ix2 k c) (ix2 k j) ?_ ?_
  · rw [resultIdx?_eq_some_iff]
    intro a
    rw [w2_start idx h0]
    match a with
    | ⟨0, _⟩ => rw [show (⟨0, by decide⟩ : Fin 2) = (0 : Fin 2) from rfl, w2_window0]; show (0 : Int) + (k.val : Int) = (k.val : Int); omega
    | ⟨1, _⟩ => rw [show (⟨1, by decide⟩ : Fin 2) = (1 : Fin 2) from rfl, w2_window1]; show (0 : Int) + (j.val : Int) = (c.val : Int); omega
  · intro j' hj'
    rw [resultIdx?_eq_some_iff] at hj'
    have e0 := hj' (0 : Fin 2)
    have e1 := hj' (1 : Fin 2)
    rw [w2_start idx h0, w2_window0] at e0
    rw [w2_start idx h0, w2_window1] at e1
    have e0' : (0 : Int) + ((j' 0).val : Int) = (k.val : Int) := e0
    have e1' : (0 : Int) + ((j' 1).val : Int) = (c.val : Int) := e1
    funext a
    match a with
    | ⟨0, _⟩ => exact Fin.ext (show (j' 0).val = k.val by omega)
    | ⟨1, _⟩ => exact Fin.ext (show (j' 1).val = j.val by omega)

/-! ## The padded second bias -/

theorem b2_start (idx : IVec S1 32) (h0 : ∀ q, idx q = 0#32) (j : S24.Idx) (a : Fin 1) :
    scatter_S128_S1_S24_0_n_0_0.start j idx a = 0 := by
  unfold ScatterDims.start
  split
  · rw [h0]; rfl
  · rfl

theorem b2_window0 (j : S24.Idx) : scatter_S128_S1_S24_0_n_0_0.window j (0 : Fin 1) = (j 0).val := by
  unfold ScatterDims.window
  rw [dif_pos (by decide)]
  rfl

/-- At an entry `c` below 24 the padded bias holds the original entry `c`. -/
theorem padB2_apply {α : Type} (x : S128.Idx → α) (idx : IVec S1 32) (h0 : ∀ q, idx q = 0#32) (upd : S24.Idx → α)
    (c : Fin 128) (j : Fin 24) (hc : c.val = j.val) :
    Host.scatter scatter_S128_S1_S24_0_n_0_0 (fun _ b => b) x idx upd (ix1 c) = upd (ix1 j) := by
  refine Cert.Lib.Scatter.scatter_replace_hit _ x idx upd (ix1 c) (ix1 j) ?_ ?_
  · rw [resultIdx?_eq_some_iff]
    intro a
    rw [b2_start idx h0]
    match a with
    | ⟨0, _⟩ => rw [show (⟨0, by decide⟩ : Fin 1) = (0 : Fin 1) from rfl, b2_window0]; show (0 : Int) + (j.val : Int) = (c.val : Int); omega
  · intro j' hj'
    rw [resultIdx?_eq_some_iff] at hj'
    have e0 := hj' (0 : Fin 1)
    rw [b2_start idx h0, b2_window0] at e0
    have e0' : (0 : Int) + ((j' 0).val : Int) = (c.val : Int) := e0
    funext a
    match a with
    | ⟨0, _⟩ => exact Fin.ext (show (j' 0).val = j.val by omega)

end Cert.KernelIdeal.Pad

end
-- ==== Proof.Bridge.lean ====
/-
  The bridge: the kernel's network output is the reference's.

  Take any [4, 20000, 288] array `X` of node features. The kernel flattens it to 80000 rows, runs the network with the second
  layer padded to 128 columns, keeps the first 24 columns and splits rows and columns back; the reference runs the network on
  `X` directly. Entry `(b, n, h, e)` of either is the network's output entry for node `(b, n)`'s row and column `2h + e`:
  row `20000 b + n` of the flattened matrix is that node's row, and below column 24 the padded second layer is the
  original one. No property of the numbers is used beyond that: the two sides are the same sums of the same products.
-/
import proofs.«125783_j79937931313654_1_alg».proof.Proof.KernelArray
import proofs.«125783_j79937931313654_1_alg».proof.Proof.KernelTail
import proofs.«125783_j79937931313654_1_alg».proof.Proof.Pad
import proofs.«125783_j79937931313654_1_alg».proof.Proof.RefMid
import Idealize.ShloMosaic.Lib.ValueLayout

noncomputable section

namespace Cert.Bridge

open Idealize.ShloMosaic Idealize.ShloMosaic.ValueIdx
open Cert.KernelIdeal Cert.KernelIdeal.Gen

/-- The padded, flattened arrays the kernel's region finds, as functions of `X` and the weights. -/
abbrev W2p (x6 : FVec Ideal S288x24 .f32) : S288x128.Idx → EReal :=
  Host.scatter scatter_S288x128_S1_S288x24_01_n_1_0 (fun _ b => b) (broadcastInDim S288x128 ![] bcast_S_S288x128 (constant (F := Ideal) S_ .f32 0x00000000#32)) (broadcastInDim S1 ![] bcast_S_S1 (constantI S_ 32 0#32)) x6
abbrev B2p (x7 : FVec Ideal S24 .f32) : S128.Idx → EReal :=
  Host.scatter scatter_S128_S1_S24_0_n_0_0 (fun _ b => b) (broadcastInDim S128 ![] bcast_S_S128 (constant (F := Ideal) S_ .f32 0x00000000#32)) (broadcastInDim S1 ![] bcast_S_S1 (constantI S_ 32 0#32)) x7

theorem pairs_eq (X : FVec Ideal Cert.ReferenceIdeal.S4x20000x288 .f32) (x4 : FVec Ideal S288x288 .f32) (x5 : FVec Ideal S288 .f32)
    (x6 : FVec Ideal S288x24 .f32) (x7 : FVec Ideal S24 .f32) :
    HostSide.pairs (Arr.G (shapeCast S80000x288 X shapeCasts_S4x20000x288_S80000x288) x4 (shapeCast S1x288 x5 shapeCasts_S288_S1x288)
        (W2p x6) (shapeCast S1x128 (B2p x7) shapeCasts_S128_S1x128))
      = Cert.ReferenceIdeal.Mid.layers X x4 x5 x6 x7 := by
  funext i
  obtain ⟨b, n, h, e, rfl⟩ : ∃ (b : Fin 4) (n : Fin 20000) (h : Fin 12) (e : Fin 2), i = ix4 b n h e := ⟨i 0, i 1, i 2, i 3, eq_ix4 i⟩
  have hb := b.isLt; have hn := n.isLt; have hh := h.isLt; have he := e.isLt
  -- the row of the flattened matrix, the column among the 24, and the same column among the 128
  let R : Fin 80000 := ⟨b.val * 20000 + n.val, by omega⟩
  let j : Fin 24 := ⟨2 * h.val + e.val, by omega⟩
  let c : Fin 128 := ⟨2 * h.val + e.val, by omega⟩
  rw [Cert.ReferenceIdeal.Mid.layers_apply X x4 x5 x6 x7 b n h e j rfl]
  unfold HostSide.pairs
  refine (shapeCast_apply _ shapeCasts_S80000x24_S4x20000x12x2 (ix4 b n h e) (ix2 R j) ?_).trans ?_
  · rw [Shape.rowMajor_val_two, Shape.rowMajor_val_four]
    show (b.val * 20000 + n.val) * 24 + (2 * h.val + e.val) = ((b.val * 20000 + n.val) * 12 + h.val) * 2 + e.val
    omega
  refine (slice2_axis1_apply 0 _ slices_S80000x128_S80000x24_0_0 R j c (by show 2 * h.val + e.val = 0 + (2 * h.val + e.val); omega)).trans ?_
  unfold Arr.G
  have eR : (⟨((ix2 R c : S80000x128.Idx) 0).val, idx2_lt0 (ix2 R c)⟩ : Fin 80000) = R := Fin.ext rfl
  have ec : (⟨((ix2 R c : S80000x128.Idx) 1).val, idx2_lt1 (ix2 R c)⟩ : Fin 128) = c := Fin.ext rfl
  rw [eR, ec]
  have e0 : (fun i : Fin 288 => shapeCast S80000x288 X shapeCasts_S4x20000x288_S80000x288 (ix2 R i)) = fun i => X (ix3 b n i) :=
    funext fun i => shapeCast_apply X shapeCasts_S4x20000x288_S80000x288 (ix2 R i) (ix3 b n i) (by
      rw [Shape.rowMajor_val_three, Shape.rowMajor_val_two]
      show (b.val * 20000 + n.val) * 288 + i.val = (b.val * 20000 + n.val) * 288 + i.val
      rfl)
  have e2 : (fun k : Fin 288 => shapeCast S1x288 x5 shapeCasts_S288_S1x288 (ix2 (0 : Fin 1) k)) = fun k => x5 (ix1 k) :=
    funext fun k => shapeCast_a_1a_apply x5 shapeCasts_S288_S1x288 0 k
  have e3 : (fun k : Fin 288 => W2p x6 (ix2 k c)) = fun k => x6 (ix2 k j) :=
    funext fun k => Pad.padW2_apply _ _ (fun _ => rfl) x6 k c j rfl
  have e4 : shapeCast S1x128 (B2p x7) shapeCasts_S128_S1x128 (ix2 (0 : Fin 1) c) = x7 (ix1 j) :=
    (shapeCast_a_1a_apply (B2p x7) shapeCasts_S128_S1x128 0 c).trans (Pad.padB2_apply _ _ (fun _ => rfl) x7 c j rfl)
  rw [e0, e2, e3, e4]

end Cert.Bridge

end
-- ==== Proof.lean ====
/-
  A two-layer perceptron over graph nodes, as one tiled kernel against plain array code.

  Both programs first build, per batch and node, a row of 288 features: the node's own features and the mean of the patch
  features of the memberships that name the node (a gather, a scatter-add, a count, a guarded division). The kernel program
  flattens batches and nodes into 80000 rows, pads the second layer with zero columns to 128, computes
  `relu (x · W₁ + b₁) · W₂ + b₂` block by block (20 blocks of 4000 rows), keeps the first 24 columns and splits rows and
  columns back; the reference computes the same two layers with two contractions on the [4, 20000, 288] array. Both then split
  the 24 outputs into 12 pairs, return the first components and softplus of the second plus a constant.

  Over the extended reals a change of float format is the identity and every matrix product is the plain sum over the
  contracted axis, so the kernel's entry for a row and a column below 24 and the reference's entry for the same node and
  column are the same sum of the same products (Proof/Bridge.lean); the prologue and the epilogue are the same functions on
  both sides and are never opened (Proof/Shared.lean). No finiteness is needed: the precondition is not used.

  The frames of the two kernel programs are the generated frame certificates; the reference's frame is its run with the
  results dropped; the idealization rewrote no operation.
-/
import proofs.«125783_j79937931313654_1_alg».proof.Defs
import proofs.«125783_j79937931313654_1_alg».proof.Proof.Gen.Kernel
import proofs.«125783_j79937931313654_1_alg».proof.Proof.Gen.Kernel.Skeleton
import proofs.«125783_j79937931313654_1_alg».proof.Proof.Gen.Kernel.Launch
import proofs.«125783_j79937931313654_1_alg».proof.Proof.Gen.Kernel.Points
import proofs.«125783_j79937931313654_1_alg».proof.Proof.Gen.Kernel.Frame
import proofs.«125783_j79937931313654_1_alg».proof.Proof.Gen.KernelIdeal
import proofs.«125783_j79937931313654_1_alg».proof.Proof.Gen.KernelIdeal.Skeleton
import proofs.«125783_j79937931313654_1_alg».proof.Proof.Gen.KernelIdeal.Launch
import proofs.«125783_j79937931313654_1_alg».proof.Proof.Gen.KernelIdeal.Points
import proofs.«125783_j79937931313654_1_alg».proof.Proof.Gen.KernelIdeal.Frame
import proofs.«125783_j79937931313654_1_alg».proof.Proof.Gen.ReferenceIdeal
import proofs.«125783_j79937931313654_1_alg».proof.Proof.Gen.Pre_finite_inputs
import proofs.«125783_j79937931313654_1_alg».proof.Proof.RefRun
import proofs.«125783_j79937931313654_1_alg».proof.Proof.RefValue
import proofs.«125783_j79937931313654_1_alg».proof.Proof.KernelRun
import proofs.«125783_j79937931313654_1_alg».proof.Proof.KernelHostX
import proofs.«125783_j79937931313654_1_alg».proof.Proof.KernelHostW
import proofs.«125783_j79937931313654_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The kernel's pairs are the reference's layers of the same prologue array: the arrays the region finds are the prologue's
    array flattened, the first weights, the first bias as a row, and the padded second layer. -/
theorem kernel_pairs (m : (ℓ : Loc Cert.KernelIdeal.nD Cert.KernelIdeal.τ Cert.KernelIdeal.sig) → Buf (Elt Ideal) ℓ) (c : Dev Cert.KernelIdeal.nD) :
    Cert.KernelIdeal.HostSide.pairs (Cert.KernelIdeal.Arr.G (Cert.KernelIdeal.Gen.V m c Cert.KernelIdeal.main_v38) (Cert.KernelIdeal.Gen.V m c Cert.KernelIdeal.main_arg4)
        (Cert.KernelIdeal.Gen.V m c Cert.KernelIdeal.main_v45) (Cert.KernelIdeal.Gen.V m c Cert.KernelIdeal.main_v41) (Cert.KernelIdeal.Gen.V m c Cert.KernelIdeal.main_v46))
      = Cert.ReferenceIdeal.Mid.layers (Cert.ReferenceIdeal.Shared.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.HostSide.V_x, Cert.KernelIdeal.Gen.V_main_arg4, Cert.KernelIdeal.HostSide.V_b1, Cert.KernelIdeal.HostSide.V_w2,
    Cert.KernelIdeal.HostSide.V_b2]
  exact Cert.Bridge.pairs_eq _ _ _ _ _

theorem algebraic : Cert.algebraic_KernelIdeal_ReferenceIdeal := by
  intro m ρ m' ρ' _ hagree
  refine ⟨fun c => Cert.ReferenceIdeal.Shared.tailMu (Cert.ReferenceIdeal.RefValue.pairsOf m' c),
    fun c => Cert.ReferenceIdeal.Shared.tailSigma (Cert.ReferenceIdeal.RefValue.pairsOf m' c), ?_, ?_⟩
  · refine (θ_run Cert.KernelIdeal.defs _ _).mono (fun _ h c => ⟨?_, ?_, (h c).2.2⟩) (Cert.KernelIdeal.RunValue.run m ρ)
    · rw [(h c).1, kernel_pairs m c]
      show _ = Cert.ReferenceIdeal.Shared.tailMu (Cert.ReferenceIdeal.RefValue.pairsOf m' c)
      unfold Cert.ReferenceIdeal.RefValue.pairsOf
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
    · rw [(h c).2.1, kernel_pairs m c]
      show _ = Cert.ReferenceIdeal.Shared.tailSigma (Cert.ReferenceIdeal.RefValue.pairsOf m' c)
      unfold Cert.ReferenceIdeal.RefValue.pairsOf
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
  · refine (θ_run Cert.ReferenceIdeal.defs _ _).mono (fun _ h c => ⟨?_, ?_, (h c).2.2⟩) (Cert.ReferenceIdeal.ValueP.run (F := Ideal) m' ρ')
    · exact (h c).1.trans (Cert.ReferenceIdeal.RefValue.res_mu m' c)
    · exact (h c).2.1.trans (Cert.ReferenceIdeal.RefValue.res_sigma m' c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
